-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_arg8 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  main_v43

def fn_part1 {F : FTy → Type} [FloatOps F] (main_arg4 : FVec F S4096 .f32) (main_arg5 : FVec F S1024x1024 .f32) (main_arg6 : FVec F S1024 .f32) (main_arg7 : FVec F S4x1024 .f32) (main_arg8 : FVec F S4x1024 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8192x1024 .f32) (main_arg3 : FVec F S2048x4096 .f32) (main_arg4 : FVec F S4096 .f32) (main_arg5 : FVec F S1024x1024 .f32) (main_arg6 : FVec F S1024 .f32) (main_arg7 : FVec F S4x1024 .f32) (main_arg8 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S4x1024 : Shape := ⟨2, ![4, 1024]⟩
abbrev S1x4096 : Shape := ⟨2, ![1, 4096]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x4096, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S4x1024, .f32⟩
  | .hbm, ⟨8, _⟩ => ⟨S4x1024, .f32⟩
  | .hbm, ⟨9, _⟩ => ⟨S2048x4096, .bf16⟩
  | .hbm, ⟨10, _⟩ => ⟨S1024x1024, .bf16⟩
  | .hbm, ⟨11, _⟩ => ⟨S1x4096, .f32⟩
  | .hbm, ⟨12, _⟩ => ⟨S1x1024, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S2048x4096, .bf16⟩
  | .local _ .vmem, ⟨9, _⟩ => ⟨S1x4096, .f32⟩
  | .local _ .vmem, ⟨10, _⟩ => ⟨S4x1024, .f32⟩
  | .local _ .vmem, ⟨11, _⟩ => ⟨S4x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S2048x4096_S1024x1024_0_0 : ∀ a, (![0, 0] : Fin 2 → Nat) a + S1024x1024.size a ≤ S2048x4096.size a
  inb_S2048x4096_S1024x1024_1024_0 : ∀ a, (![1024, 0] : Fin 2 → Nat) a + S1024x1024.size a ≤ S2048x4096.size a
  inb_S1x4096_S1x1024_0_0 : ∀ a, (![0, 0] : Fin 2 → Nat) a + S1x1024.size a ≤ S1x4096.size a
  inb_S4x1024_S1x1024_0_0 : ∀ a, (![0, 0] : Fin 2 → Nat) a + S1x1024.size a ≤ S4x1024.size a
  shapeCasts_S1x1024_S1024 : S1x1024.ShapeCasts S1024
  inb_S2048x4096_S1024x1024_0_1024 : ∀ a, (![0, 1024] : Fin 2 → Nat) a + S1024x1024.size a ≤ S2048x4096.size a
  inb_S2048x4096_S1024x1024_1024_1024 : ∀ a, (![1024, 1024] : Fin 2 → Nat) a + S1024x1024.size a ≤ S2048x4096.size a
  inb_S1x4096_S1x1024_0_1024 : ∀ a, (![0, 1024] : Fin 2 → Nat) a + S1x1024.size a ≤ S1x4096.size a
  inb_S4x1024_S1x1024_1_0 : ∀ a, (![1, 0] : Fin 2 → Nat) a + S1x1024.size a ≤ S4x1024.size a
  inb_S2048x4096_S1024x1024_0_2048 : ∀ a, (![0, 2048] : Fin 2 → Nat) a + S1024x1024.size a ≤ S2048x4096.size a
  inb_S2048x4096_S1024x1024_1024_2048 : ∀ a, (![1024, 2048] : Fin 2 → Nat) a + S1024x1024.size a ≤ S2048x4096.size a
  inb_S1x4096_S1x1024_0_2048 : ∀ a, (![0, 2048] : Fin 2 → Nat) a + S1x1024.size a ≤ S1x4096.size a
  inb_S4x1024_S1x1024_2_0 : ∀ a, (![2, 0] : Fin 2 → Nat) a + S1x1024.size a ≤ S4x1024.size a
  inb_S2048x4096_S1024x1024_0_3072 : ∀ a, (![0, 3072] : Fin 2 → Nat) a + S1024x1024.size a ≤ S2048x4096.size a
  inb_S2048x4096_S1024x1024_1024_3072 : ∀ a, (![1024, 3072] : Fin 2 → Nat) a + S1024x1024.size a ≤ S2048x4096.size a
  inb_S1x4096_S1x1024_0_3072 : ∀ a, (![0, 3072] : Fin 2 → Nat) a + S1x1024.size a ≤ S1x4096.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x4096.size a ≤ S2048x4096.size a
  hwx0_5 : ∀ i : grid0.Coords, EltTy.bits .bf16 = 32 ∨ (Rect.block (s := S2048x4096) S2048x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S4x1024 : Shape := ⟨2, ![4, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x4096 : Shape := ⟨2, ![8192, 4096]⟩
abbrev S1x4096 : Shape := ⟨2, ![1, 4096]⟩

abbrev nBuf : Space → Nat
  | .hbm => 252
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S2048x4096, .f32⟩
  | 4 => ⟨S4096, .f32⟩
  | 5 => ⟨S1024x1024, .f32⟩
  | 6 => ⟨S1024, .f32⟩
  | 7 => ⟨S4x1024, .f32⟩
  | 8 => ⟨S4x1024, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1024, .f32⟩
  | 17 => ⟨S_, .f32⟩
  | 18 => ⟨S8192, .f32⟩
  | 19 => ⟨S8192, .f32⟩
  | 20 => ⟨S_, .f32⟩
  | 21 => ⟨S8192, .f32⟩
  | 22 => ⟨S8192, .f32⟩
  | 23 => ⟨S8192x1024, .f32⟩
  | 24 => ⟨S_, .f32⟩
  | 25 => ⟨S8192, .f32⟩
  | 26 => ⟨S8192, .f32⟩
  | 27 => ⟨S_, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S_, .f32⟩
  | 35 => ⟨S8192, .f32⟩
  | 36 => ⟨S8192, .f32⟩
  | 37 => ⟨S_, .f32⟩
  | 38 => ⟨S8192, .f32⟩
  | 39 => ⟨S8192, .f32⟩
  | 40 => ⟨S8192x1, .f32⟩
  | 41 => ⟨S8192x1024, .f32⟩
  | 42 => ⟨S8192x1024, .f32⟩
  | 43 => ⟨S8192x1024, .f32⟩
  | 44 => ⟨S8192x2048, .f32⟩
  | 45 => ⟨S8192x4096, .f32⟩
  | 46 => ⟨S1x4096, .f32⟩
  | 47 => ⟨S8192x4096, .f32⟩
  | 48 => ⟨S8192x4096, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S1024, .f32⟩
  | 55 => ⟨S1x1024, .f32⟩
  | 56 => ⟨S1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S_, .f32⟩
  | 75 => ⟨S8192x1, .f32⟩
  | 76 => ⟨S8192x1, .f32⟩
  | 77 => ⟨S8192x1, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S1x1024, .f32⟩
  | 95 => ⟨S1024, .f32⟩
  | 96 => ⟨S1x1024, .f32⟩
  | 97 => ⟨S1024, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S8192x1024, .f32⟩
  | 114 => ⟨S8192x1024, .f32⟩
  | 115 => ⟨S_, .f32⟩
  | 116 => ⟨S8192x1, .f32⟩
  | 117 => ⟨S8192x1, .f32⟩
  | 118 => ⟨S8192x1, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S1x1024, .f32⟩
  | 8 => ⟨S1024, .f32⟩
  | 9 => ⟨S1x1024, .f32⟩
  | 10 => ⟨S1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S_, .f32⟩
  | 29 => ⟨S8192x1, .f32⟩
  | 30 => ⟨S8192x1, .f32⟩
  | 31 => ⟨S8192x1, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1024, .f32⟩
  | 91 => ⟨S_, .f32⟩
  | 92 => ⟨S8192, .f32⟩
  | 93 => ⟨S8192, .f32⟩
  | 94 => ⟨S_, .f32⟩
  | 95 => ⟨S8192, .f32⟩
  | 96 => ⟨S8192, .f32⟩
  | 97 => ⟨S8192x1024, .f32⟩
  | 98 => ⟨S_, .f32⟩
  | 99 => ⟨S8192, .f32⟩
  | 100 => ⟨S8192, .f32⟩
  | 101 => ⟨S_, .f32⟩
  | 102 => ⟨S8192, .f32⟩
  | 103 => ⟨S8192, .f32⟩
  | 104 => ⟨S8192, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1024, .f32⟩
  | 122 => ⟨S8192x1024, .f32⟩
  | 123 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_18 : Ref sig .tc := ⟨.hbm, 139, rfl⟩
abbrev main_v105 : Ref sig .tc := ⟨.hbm, 140, rfl⟩
abbrev main_v106 : Ref sig .tc := ⟨.hbm, 141, rfl⟩
abbrev main_cst_19 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_20 : Ref sig .tc := ⟨.hbm, 148, rfl⟩
abbrev main_v112 : Ref sig .tc := ⟨.hbm, 149, rfl⟩
abbrev main_v113 : Ref sig .tc := ⟨.hbm, 150, rfl⟩
abbrev main_cst_21 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_23 : Ref sig .tc := ⟨.hbm, 173, rfl⟩
abbrev main_v134 : Ref sig .tc := ⟨.hbm, 174, rfl⟩
abbrev main_v135 : Ref sig .tc := ⟨.hbm, 175, rfl⟩
abbrev main_cst_24 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_25 : Ref sig .tc := ⟨.hbm, 182, rfl⟩
abbrev main_v141 : Ref sig .tc := ⟨.hbm, 183, rfl⟩
abbrev main_v142 : Ref sig .tc := ⟨.hbm, 184, rfl⟩
abbrev main_cst_26 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_27 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_28 : Ref sig .tc := ⟨.hbm, 204, rfl⟩
abbrev main_v160 : Ref sig .tc := ⟨.hbm, 205, rfl⟩
abbrev main_v161 : Ref sig .tc := ⟨.hbm, 206, rfl⟩
abbrev main_cst_29 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_30 : Ref sig .tc := ⟨.hbm, 216, rfl⟩
abbrev main_v170 : Ref sig .tc := ⟨.hbm, 217, rfl⟩
abbrev main_call2_v0 : Ref sig .tc := ⟨.hbm, 218, rfl⟩
abbrev main_call2_cst : Ref sig .tc := ⟨.hbm, 219, rfl⟩
abbrev main_call2_v1 : Ref sig .tc := ⟨.hbm, 220, rfl⟩
abbrev main_v171 : Ref sig .tc := ⟨.hbm, 221, rfl⟩
abbrev main_cst_31 : Ref sig .tc := ⟨.hbm, 222, rfl⟩
abbrev main_v172 : Ref sig .tc := ⟨.hbm, 223, rfl⟩
abbrev main_v173 : Ref sig .tc := ⟨.hbm, 224, rfl⟩
abbrev main_call3_v0 : Ref sig .tc := ⟨.hbm, 225, rfl⟩
abbrev main_call3_cst : Ref sig .tc := ⟨.hbm, 226, rfl⟩
abbrev main_call3_v1 : Ref sig .tc := ⟨.hbm, 227, rfl⟩
abbrev main_v174 : Ref sig .tc := ⟨.hbm, 228, rfl⟩
abbrev main_cst_32 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_33 : Ref sig .tc := ⟨.hbm, 235, rfl⟩
abbrev main_v180 : Ref sig .tc := ⟨.hbm, 236, rfl⟩
abbrev main_v181 : Ref sig .tc := ⟨.hbm, 237, rfl⟩
abbrev main_cst_34 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_35 : Ref sig .tc := ⟨.hbm, 243, rfl⟩
abbrev main_v186 : Ref sig .tc := ⟨.hbm, 244, rfl⟩
abbrev main_v187 : Ref sig .tc := ⟨.hbm, 245, rfl⟩
abbrev main_cst_36 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  slices_S4x1024_S1x1024_0_0 : S4x1024.Slices ![0, 0] S1x1024
  shapeCasts_S1x1024_S1024 : S1x1024.ShapeCasts S1024
  bcast_S_S8192x1 : S_.BroadcastsInDim S8192x1 (![] : Fin 0 → Fin S8192x1.rank)
  bcast_S_S8192x1024 : S_.BroadcastsInDim S8192x1024 (![] : Fin 0 → Fin S8192x1024.rank)
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024
  dot_S8192x1024_S1024x1024_S8192x1024_1_0_0_1_n_n_wf : DotDims.WF S8192x1024 S1024x1024 S8192x1024 [1] [0] [0] [1] [] []
  dot_S8192x2048_S2048x4096_S8192x4096_1_0_0_1_n_n_wf : DotDims.WF S8192x2048 S2048x4096 S8192x4096 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.CellSpec.lean ====
/-
  The cell, row by row, on the extended reals. One batch row of the cell is a function of that row of x, hx and cx and of
  the weights: the projected input x·Wm + bm, its cosine similarity with hx, the input scaled by one plus the sigmoid of
  that cosine, four gate pre-activations (xm·Wx + hx·Wh + b), each layer-normalised over its 1024 lanes, the new cell
  state f·cx + i·g, the new hidden state o·tanh(c'), and the hidden state scaled by one plus the sigmoid of
  (cos(h', c') + 1) / 2.

  The two programs spell three steps differently: the sigmoid (one operation, against 1 / (1 + e^(-y))), the scaled input
  (x·(1 + s) against x + s·x) and the scaled hidden state (h·(1 + s) against h + h·s). The sigmoid on the extended reals IS
  1 / (1 + e^(-y)); and since a sigmoid is a real in [0, 1], multiplication distributes over 1 + s for EVERY extended real
  x (the sum of two non-negative terms), so no finiteness of the inputs is used.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- One row of 1024 lanes. -/
abbrev Row := Fin 1024 → EReal

/-- The literals both programs spell, as the extended reals their f32 patterns denote: 1, 2, 1024, the cosine's
    floor 1e-6 and the layer norm's 1e-5 (the last two only ever meet themselves). -/
abbrev lit1 : EReal := Ideal.ofBits .f32 0x3F800000#32
abbrev lit2 : EReal := Ideal.ofBits .f32 0x40000000#32
abbrev lit1024 : EReal := Ideal.ofBits .f32 0x44800000#32
abbrev epsCos : EReal := Ideal.ofBits .f32 0x358637BD#32
abbrev epsLn : EReal := Ideal.ofBits .f32 0x3727C5AC#32

theorem lit1_eq : lit1 = 1 := by
  show Ideal.ofBits .f32 0x3F800000#32 = 1
  simp [Ideal.ofBits, Ideal.ieee, -EReal.coe_mul]; norm_num

/-- The inner product of two rows. -/
def dot (a b : Row) : EReal := ∑ k : Fin 1024, a k * b k

/-- Cosine similarity with each norm floored at 1e-6. -/
def cosSim (a b : Row) : EReal :=
  Ideal.div (dot a b) (max (Ideal.sqrt (dot a a)) epsCos * max (Ideal.sqrt (dot b b)) epsCos)

/-- The mean of a row. -/
def mean (v : Row) : EReal := Ideal.div (∑ k : Fin 1024, v k) lit1024

/-- Layer normalisation of a row with scale `g` and shift `be`. -/
def layerNorm (v g be : Row) : Row := fun j =>
  (v j - mean v) * Ideal.rsqrt (Ideal.div (∑ k : Fin 1024, (v k - mean v) * (v k - mean v)) lit1024 + epsLn) * g j + be j

/-- The projected input x·Wm + bm. -/
def proj (Wm : Fin 1024 → Fin 1024 → EReal) (bm : Row) (x : Row) : Row :=
  fun j => (∑ k : Fin 1024, x k * Wm k j) + bm j

/-- One gate's weights: its 1024 columns of the input and hidden halves of W, its bias, its layer-norm scale and shift. -/
structure Gate where
  Wx : Fin 1024 → Fin 1024 → EReal
  Wh : Fin 1024 → Fin 1024 → EReal
  b : Row
  g : Row
  be : Row

/-- A gate's pre-activation xm·Wx + hx·Wh + b. -/
def gateRaw (G : Gate) (xm hx : Row) : Row :=
  fun j => ((∑ k : Fin 1024, xm k * G.Wx k j) + ∑ k : Fin 1024, hx k * G.Wh k j) + G.b j

/-- A gate's layer-normalised pre-activation. -/
def gateLN (G : Gate) (xm hx : Row) : Row := layerNorm (gateRaw G xm hx) G.g G.be

/-- The new cell state from the three activated gates and the old state. -/
def cellState (sg : EReal → EReal) (Gi Gf Gg : Gate) (xm hx cx : Row) : Row :=
  fun j => sg (gateLN Gf xm hx j) * cx j + sg (gateLN Gi xm hx j) * Ideal.tanh (gateLN Gg xm hx j)

/-- The new hidden state o·tanh(c'). -/
def hidden (sg : EReal → EReal) (Gi Gf Gg Go : Gate) (xm hx cx : Row) : Row :=
  fun j => sg (gateLN Go xm hx j) * Ideal.tanh (cellState sg Gi Gf Gg xm hx cx j)

/-- The argument of the output scaling's sigmoid: (cos(h', c') + 1) / 2. -/
def mixArg (h c : Row) : EReal := Ideal.div (cosSim h c + lit1) lit2

/-- The host's spelling of the sigmoid. -/
def sigExp (y : EReal) : EReal := Ideal.div lit1 (lit1 + Ideal.exp (-y))

/-! ## Reading the weights out of the argument arrays -/

/-- The 1024 × 1024 block of a matrix whose corner is (o0, o1). -/
def subBlock {R C : ℕ} (A : (⟨2, ![R, C]⟩ : Shape).Idx → EReal) (o0 o1 : ℕ) (h0 : o0 + 1024 ≤ R) (h1 : o1 + 1024 ≤ C) :
    Fin 1024 → Fin 1024 → EReal :=
  fun k j => A (ix2 ⟨o0 + k.val, by omega⟩ ⟨o1 + j.val, by omega⟩)

/-- 1024 consecutive entries, from column `o`, of row `r` of a matrix. -/
def rowSeg {R C : ℕ} (A : (⟨2, ![R, C]⟩ : Shape).Idx → EReal) (r o : ℕ) (hr : r < R) (h : o + 1024 ≤ C) : Row :=
  fun j => A (ix2 ⟨r, hr⟩ ⟨o + j.val, by omega⟩)

/-- 1024 consecutive entries of a vector, from `o`. -/
def vecSeg {C : ℕ} (b : (⟨1, ![C]⟩ : Shape).Idx → EReal) (o : ℕ) (h : o + 1024 ≤ C) : Row :=
  fun j => b (ix1 ⟨o + j.val, by omega⟩)

/-! ## The kernel's spelling and the reference's -/

/-- The kernel's scaled input x·(1 + σ(cos(x·Wm + bm, hx))). -/
def xmodK (Wm : Fin 1024 → Fin 1024 → EReal) (bm x hx : Row) : Row :=
  fun k => x k * (lit1 + Ideal.logistic (cosSim (proj Wm bm x) hx))

/-- The reference's x + σ(…)·x. -/
def xmodR (Wm : Fin 1024 → Fin 1024 → EReal) (bm x hx : Row) : Row :=
  fun k => x k + sigExp (cosSim (proj Wm bm x) hx) * x k

/-- The kernel's two result rows. -/
def cellK (Wm : Fin 1024 → Fin 1024 → EReal) (bm : Row) (Gi Gf Gg : Gate) (x hx cx : Row) : Row :=
  cellState Ideal.logistic Gi Gf Gg (xmodK Wm bm x hx) hx cx
def hidK (Wm : Fin 1024 → Fin 1024 → EReal) (bm : Row) (Gi Gf Gg Go : Gate) (x hx cx : Row) : Row :=
  fun j => hidden Ideal.logistic Gi Gf Gg Go (xmodK Wm bm x hx) hx cx j
    * (lit1 + Ideal.logistic (mixArg (hidden Ideal.logistic Gi Gf Gg Go (xmodK Wm bm x hx) hx cx) (cellK Wm bm Gi Gf Gg x hx cx)))

/-- The reference's. -/
def cellR (Wm : Fin 1024 → Fin 1024 → EReal) (bm : Row) (Gi Gf Gg : Gate) (x hx cx : Row) : Row :=
  cellState sigExp Gi Gf Gg (xmodR Wm bm x hx) hx cx
def hidR (Wm : Fin 1024 → Fin 1024 → EReal) (bm : Row) (Gi Gf Gg Go : Gate) (x hx cx : Row) : Row :=
  fun j => hidden sigExp Gi Gf Gg Go (xmodR Wm bm x hx) hx cx j
    + hidden sigExp Gi Gf Gg Go (xmodR Wm bm x hx) hx cx j
      * sigExp (mixArg (hidden sigExp Gi Gf Gg Go (xmodR Wm bm x hx) hx cx) (cellR Wm bm Gi Gf Gg x hx cx))

/-! ## The two result arrays as functions of the nine argument arrays -/

/-- Gate `n` (its columns of W start at `o`) read out of W, b, gamma and beta. -/
def gateAt (W : (⟨2, ![2048, 4096]⟩ : Shape).Idx → EReal) (b : (⟨1, ![4096]⟩ : Shape).Idx → EReal)
    (gam bet : (⟨2, ![4, 1024]⟩ : Shape).Idx → EReal) (o n : ℕ) (ho : o + 1024 ≤ 4096) (hn : n < 4) : Gate :=
  ⟨subBlock W 0 o (by omega) ho, subBlock W 1024 o (by omega) ho, vecSeg b o ho, rowSeg gam n 0 hn (by omega),
    rowSeg bet n 0 hn (by omega)⟩

section Arrays
variable (x hx cx : (⟨2, ![8192, 1024]⟩ : Shape).Idx → EReal) (W : (⟨2, ![2048, 4096]⟩ : Shape).Idx → EReal)
  (b : (⟨1, ![4096]⟩ : Shape).Idx → EReal) (Wm : (⟨2, ![1024, 1024]⟩ : Shape).Idx → EReal) (bm : (⟨1, ![1024]⟩ : Shape).Idx → EReal)
  (gam bet : (⟨2, ![4, 1024]⟩ : Shape).Idx → EReal)

/-- The new cell state at batch row `r`, lane `j` (the kernel's spelling; `cellAtR` the reference's). -/
def cellAt (r : Fin 8192) (j : Fin 1024) : EReal :=
  cellK (fun k j => Wm (ix2 k j)) (fun j => bm (ix1 j)) (gateAt W b gam bet 0 0 (by omega) (by omega))
    (gateAt W b gam bet 1024 1 (by omega) (by omega)) (gateAt W b gam bet 2048 2 (by omega) (by omega))
    (fun k => x (ix2 r k)) (fun k => hx (ix2 r k)) (fun k => cx (ix2 r k)) j
def cellAtR (r : Fin 8192) (j : Fin 1024) : EReal :=
  cellR (fun k j => Wm (ix2 k j)) (fun j => bm (ix1 j)) (gateAt W b gam bet 0 0 (by omega) (by omega))
    (gateAt W b gam bet 1024 1 (by omega) (by omega)) (gateAt W b gam bet 2048 2 (by omega) (by omega))
    (fun k => x (ix2 r k)) (fun k => hx (ix2 r k)) (fun k => cx (ix2 r k)) j

/-- The scaled hidden state at batch row `r`, lane `j`. -/
def hidAt (r : Fin 8192) (j : Fin 1024) : EReal :=
  hidK (fun k j => Wm (ix2 k j)) (fun j => bm (ix1 j)) (gateAt W b gam bet 0 0 (by omega) (by omega))
    (gateAt W b gam bet 1024 1 (by omega) (by omega)) (gateAt W b gam bet 2048 2 (by omega) (by omega))
    (gateAt W b gam bet 3072 3 (by omega) (by omega))
    (fun k => x (ix2 r k)) (fun k => hx (ix2 r k)) (fun k => cx (ix2 r k)) j
def hidAtR (r : Fin 8192) (j : Fin 1024) : EReal :=
  hidR (fun k j => Wm (ix2 k j)) (fun j => bm (ix1 j)) (gateAt W b gam bet 0 0 (by omega) (by omega))
    (gateAt W b gam bet 1024 1 (by omega) (by omega)) (gateAt W b gam bet 2048 2 (by omega) (by omega))
    (gateAt W b gam bet 3072 3 (by omega) (by omega))
    (fun k => x (ix2 r k)) (fun k => hx (ix2 r k)) (fun k => cx (ix2 r k)) j

/-- The two result arrays. -/
def cellOut : (⟨2, ![8192, 1024]⟩ : Shape).Idx → EReal :=
  fun i => cellAt x hx cx W b Wm bm gam bet ⟨(i 0).val, idx2_lt0 i⟩ ⟨(i 1).val, idx2_lt1 i⟩
def hidOut : (⟨2, ![8192, 1024]⟩ : Shape).Idx → EReal :=
  fun i => hidAt x hx cx W b Wm bm gam bet ⟨(i 0).val, idx2_lt0 i⟩ ⟨(i 1).val, idx2_lt1 i⟩

end Arrays

/-! ## They are one function -/

/-- The sigmoid of any extended real is a non-negative real. -/
theorem logistic_nonneg (y : EReal) : 0 ≤ Ideal.logistic y := by
  induction y using EReal.rec with
  | bot => rw [Ideal.logistic_bot]
  | coe r =>
    rw [Ideal.logistic_coe]
    exact EReal.coe_nonneg.mpr (inv_nonneg.mpr (by have := Real.exp_pos (-r); linarith))
  | top => rw [Ideal.logistic_top]; exact zero_le_one

/-- The host's 1 / (1 + e^(-y)) is the sigmoid. -/
theorem sigExp_eq : sigExp = Ideal.logistic := by
  funext y
  unfold sigExp
  rw [lit1_eq]
  rfl

/-- x·(1 + s) = x + x·s for a non-negative s, at every extended real x. -/
theorem mul_one_add (x : EReal) {s : EReal} (hs : 0 ≤ s) : x * (lit1 + s) = x + x * s := by
  rw [lit1_eq, EReal.left_distrib_of_nonneg zero_le_one hs, mul_one]

theorem xmod_eq (Wm : Fin 1024 → Fin 1024 → EReal) (bm x hx : Row) : xmodK Wm bm x hx = xmodR Wm bm x hx := by
  funext k
  unfold xmodK xmodR
  rw [sigExp_eq, mul_one_add _ (logistic_nonneg _), mul_comm (x k) (Ideal.logistic _)]

theorem cell_eq (Wm : Fin 1024 → Fin 1024 → EReal) (bm : Row) (Gi Gf Gg : Gate) (x hx cx : Row) :
    cellK Wm bm Gi Gf Gg x hx cx = cellR Wm bm Gi Gf Gg x hx cx := by
  unfold cellK cellR
  rw [xmod_eq, sigExp_eq]

theorem hid_eq (Wm : Fin 1024 → Fin 1024 → EReal) (bm : Row) (Gi Gf Gg Go : Gate) (x hx cx : Row) :
    hidK Wm bm Gi Gf Gg Go x hx cx = hidR Wm bm Gi Gf Gg Go x hx cx := by
  funext j
  unfold hidK hidR
  rw [cell_eq, xmod_eq, sigExp_eq, mul_one_add _ (logistic_nonneg _)]

theorem cellAt_eq (x hx cx : (⟨2, ![8192, 1024]⟩ : Shape).Idx → EReal) (W : (⟨2, ![2048, 4096]⟩ : Shape).Idx → EReal)
    (b : (⟨1, ![4096]⟩ : Shape).Idx → EReal) (Wm : (⟨2, ![1024, 1024]⟩ : Shape).Idx → EReal) (bm : (⟨1, ![1024]⟩ : Shape).Idx → EReal)
    (gam bet : (⟨2, ![4, 1024]⟩ : Shape).Idx → EReal) (r : Fin 8192) (j : Fin 1024) :
    cellAt x hx cx W b Wm bm gam bet r j = cellAtR x hx cx W b Wm bm gam bet r j := by
  unfold cellAt cellAtR
  rw [cell_eq]

theorem hidAt_eq (x hx cx : (⟨2, ![8192, 1024]⟩ : Shape).Idx → EReal) (W : (⟨2, ![2048, 4096]⟩ : Shape).Idx → EReal)
    (b : (⟨1, ![4096]⟩ : Shape).Idx → EReal) (Wm : (⟨2, ![1024, 1024]⟩ : Shape).Idx → EReal) (bm : (⟨1, ![1024]⟩ : Shape).Idx → EReal)
    (gam bet : (⟨2, ![4, 1024]⟩ : Shape).Idx → EReal) (r : Fin 8192) (j : Fin 1024) :
    hidAt x hx cx W b Wm bm gam bet r j = hidAtR x hx cx W b Wm bm gam bet r j := by
  unfold hidAt hidAtR
  rw [hid_eq]

end Cert.Cell

end
-- ==== Proof.KernelRows.lean ====
/-
  The kernel's body, read row by row. Each value the body computes on a [256, 1024] block is read at (p, q) as the
  cell's row function (CellSpec) of row p of the blocks it was computed from: a lane sum is the sum over the row, a
  matrix product the sum over the contracted index, a column kept as [256, 1] and spread back over the lanes is the
  row's one value. The weights enter as the loaded blocks, read where their rectangles sit in the resident arrays.
-/
import proofs.«101928_j42683384987798_2_alg».proof.Proof.Gen.KernelIdeal.Skeleton
import proofs.«101928_j42683384987798_2_alg».proof.Proof.LibIndexRead
import proofs.«101928_j42683384987798_2_alg».proof.Proof.CellSpec
import Idealize.ShloMosaic.PureOps.Ideal.Laws
import Idealize.ShloMosaic.Lib.ValueIdx
import Idealize.ShloMosaic.Lib.ValueLayout

noncomputable section

namespace Cert.KernelIdeal.Rows

open Cert.KernelIdeal Cert.KernelIdeal.Gen Idealize.ShloMosaic Idealize.ShloMosaic.ValueIdx Idealize.ShloMosaic.RowRead Cert.Cell

/-! ## The operations of one row -/

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl
theorem scalar_ofBits (b : BitVec 32) : (Scalar.ofBits (F := Ideal) .f32 b) = Ideal.ofBits .f32 b := rfl

/-- A lane sum of a [256, 1024] block at row `p` is the sum of the row. -/
theorem rowSum_apply (src : S256x1024.Idx → EReal) (p : Fin 256) :
    Ideal.reduceAdd reduces_S256x1024_S256 src (ix1 p) = ∑ k : Fin 1024, src (ix2 p k) := by
  refine (Ideal.reduceAdd_single reduces_S256x1024_S256 src (ix1 p)).trans ?_
  refine Finset.sum_congr rfl fun k _ => congrArg src (funext fun d => Fin.ext ?_)
  match d with
  | ⟨0, _⟩ => rfl
  | ⟨1, _⟩ => rfl

theorem lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The matrix unit's product of a [256, 1024] block with a [1024, 1024] block, at (p, q): the accumulator there plus
    the sum over k of row p at k times column q at k. -/
theorem mm_apply (a : FVec Ideal S256x1024 .bf16) (b : FVec Ideal S1024x1024 .bf16) (acc : FVec Ideal S256x1024 .f32)
    (p : Fin 256) (q : Fin 1024) :
    matmul dot_S256x1024_S1024x1024_S256x1024_1_0_0_1_n_n none a b acc (ix2 p q)
      = acc (ix2 p q) + ∑ k : Fin 1024, a (ix2 p k) * b (ix2 k q) := by
  simp only [matmul]
  rw [Ideal.matmul_apply, ← Equiv.sum_comp (ValueIdx.contrEquiv1 dot_S256x1024_S1024x1024_S256x1024_1_0_0_1_n_n 1024 rfl rfl).symm]
  refine congrArg (_ + ·) (Finset.sum_congr rfl fun k _ => ?_)
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun d => Fin.ext (by
    match d with
    | ⟨0, _⟩ => exact lhs_0 _ _
    | ⟨1, _⟩ => exact (lhs_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun d => Fin.ext (by
    match d with
    | ⟨0, _⟩ => exact (rhs_0 _ _).trans hk
    | ⟨1, _⟩ => exact rhs_1 _ _)
  rw [el, er]

/-! ## The body's values at (p, q) -/

/-- One gate's weights as the body holds them: two [1024, 1024] blocks of W and one row each of b, gamma, beta. -/
def gateOf (wx wh : S1024x1024.Idx → EReal) (b g be : S1x1024.Idx → EReal) : Gate :=
  ⟨fun k j => wx (ix2 k j), fun k j => wh (ix2 k j), fun j => b (ix2 (0 : Fin 1) j), fun j => g (ix2 (0 : Fin 1) j),
    fun j => be (ix2 (0 : Fin 1) j)⟩

/-- The scaled input (rounded for the matrix unit: the identity here). -/
theorem xmod_apply (v0 v1 : Vec Ideal S256x1024 .f32) (v4 : Vec Ideal S1024x1024 .bf16) (v7 : Vec Ideal S1x1024 .f32)
    (p : Fin 256) (q : Fin 1024) :
    k0_pay2 (F := Ideal) v0 v1 v4 v7 (ix2 p q)
      = xmodK (fun k j => v4 (ix2 k j)) (fun j => v7 (ix2 (0 : Fin 1) j)) (fun k => v0 (ix2 p k)) (fun k => v1 (ix2 p k)) q := by
  unfold k0_pay2
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
  simp only [xmodK, cosSim, dot, proj]

/-- A gate's activation: the sigmoid of its layer-normalised pre-activation (gate i). -/
theorem gate_i_apply (v33 v34 : FVec Ideal S256x1024 .bf16) (v36 : FVec Ideal S1024x1024 .bf16) (v37 : Vec Ideal S1024x1024 .bf16)
    (v39 v46 v48 : Vec Ideal S1x1024 .f32) (p : Fin 256) (q : Fin 1024) :
    k0_pay5 (F := Ideal) v33 v34 v36 v37 v39 v46 v48 (ix2 p q)
      = Ideal.logistic (gateLN (gateOf v36 v37 v39 v46 v48) (fun k => v33 (ix2 p k)) (fun k => v34 (ix2 p k)) q) := by
  unfold k0_pay5
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
  simp only [gateLN, gateOf, gateRaw, layerNorm, mean]

/-- Gate f. -/
theorem gate_f_apply (v33 v34 : FVec Ideal S256x1024 .bf16) (v76 v78 : FVec Ideal S1024x1024 .bf16)
    (v79 v86 v88 : Vec Ideal S1x1024 .f32) (p : Fin 256) (q : Fin 1024) :
    k0_pay8 (F := Ideal) v33 v34 v76 v78 v79 v86 v88 (ix2 p q)
      = Ideal.logistic (gateLN (gateOf v76 v78 v79 v86 v88) (fun k => v33 (ix2 p k)) (fun k => v34 (ix2 p k)) q) := by
  unfold k0_pay8
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
  simp only [gateLN, gateOf, gateRaw, layerNorm, mean]

/-- Gate g: the hyperbolic tangent of its layer-normalised pre-activation (its first product accumulates into zeros). -/
theorem gate_g_apply (v33 v34 : FVec Ideal S256x1024 .bf16) (v116 v118 : FVec Ideal S1024x1024 .bf16) (v120 : FVec Ideal S1x1024 .f32)
    (v126 v128 : Vec Ideal S1x1024 .f32) (p : Fin 256) (q : Fin 1024) :
    k0_pay12 (F := Ideal) v33 v34 v116 v118 v120 (constant S256x1024 .f32 0x00000000#32) v126 v128 (ix2 p q)
      = Ideal.tanh (gateLN (gateOf v116 v118 v120 v126 v128) (fun k => v33 (ix2 p k)) (fun k => v34 (ix2 p k)) q) := by
  unfold k0_pay12
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
  simp only [gateLN, gateOf, gateRaw, layerNorm, mean]

/-- The two products of gate o, each a sum over the contracted index. -/
theorem prod_x_apply (v33 : FVec Ideal S256x1024 .bf16) (v155 : Vec Ideal S1024x1024 .bf16) (p : Fin 256) (q : Fin 1024) :
    k0_pay14 (F := Ideal) v33 v155 (ix2 p q) = ∑ k : Fin 1024, v33 (ix2 p k) * v155 (ix2 k q) := by
  unfold k0_pay14
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
theorem prod_h_apply (v34 : FVec Ideal S256x1024 .bf16) (v157 : Vec Ideal S1024x1024 .bf16) (p : Fin 256) (q : Fin 1024) :
    k0_pay15 (F := Ideal) v34 v157 (ix2 p q) = ∑ k : Fin 1024, v34 (ix2 p k) * v157 (ix2 k q) := by
  unfold k0_pay15
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]

/-- The new cell state, lane by lane. -/
theorem cell_apply (v2 : Vec Ideal S256x1024 .f32) (v74 v114 v154 : FVec Ideal S256x1024 .f32) (i : S256x1024.Idx) :
    k0_pay16 (F := Ideal) v2 v74 v114 v154 i = v114 i * v2 i + v74 i * v154 i := rfl

/-- The new hidden state: gate o's sigmoid (of the layer norm of its two products plus bias) times tanh of the new cell state. -/
theorem hidden_apply (v2 : Vec Ideal S256x1024 .f32) (v74 v114 v154 : FVec Ideal S256x1024 .f32) (v160 : FVec Ideal S1x1024 .f32)
    (v161 v162 : FVec Ideal S256x1024 .f32) (v166 v168 : Vec Ideal S1x1024 .f32) (p : Fin 256) (q : Fin 1024) :
    k0_pay17 (F := Ideal) v2 v74 v114 v154 v160 v161 v162 v166 v168 (ix2 p q)
      = Ideal.logistic (layerNorm (fun j => (v161 (ix2 p j) + v162 (ix2 p j)) + v160 (ix2 (0 : Fin 1) j))
          (fun j => v166 (ix2 (0 : Fin 1) j)) (fun j => v168 (ix2 (0 : Fin 1) j)) q)
        * Ideal.tanh (k0_pay16 (F := Ideal) v2 v74 v114 v154 (ix2 p q)) := by
  unfold k0_pay17
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
  simp only [layerNorm, mean]

/-- The three row values of the second cosine: h'·c', |h'| and |c'|. -/
theorem hc_dot_apply (v2 : Vec Ideal S256x1024 .f32) (v74 v114 v154 : FVec Ideal S256x1024 .f32) (v160 : FVec Ideal S1x1024 .f32)
    (v161 v162 : FVec Ideal S256x1024 .f32) (v166 v168 : Vec Ideal S1x1024 .f32) (p : Fin 256) (u : Fin 1) :
    k0_pay18 (F := Ideal) v2 v74 v114 v154 v160 v161 v162 v166 v168 (ix2 p u)
      = ∑ k : Fin 1024, k0_pay17 (F := Ideal) v2 v74 v114 v154 v160 v161 v162 v166 v168 (ix2 p k)
          * k0_pay16 (F := Ideal) v2 v74 v114 v154 (ix2 p k) := by
  unfold k0_pay18
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
theorem h_norm_apply (v2 : Vec Ideal S256x1024 .f32) (v74 v114 v154 : FVec Ideal S256x1024 .f32) (v160 : FVec Ideal S1x1024 .f32)
    (v161 v162 : FVec Ideal S256x1024 .f32) (v166 v168 : Vec Ideal S1x1024 .f32) (p : Fin 256) (u : Fin 1) :
    k0_pay19 (F := Ideal) v2 v74 v114 v154 v160 v161 v162 v166 v168 (ix2 p u)
      = Ideal.sqrt (∑ k : Fin 1024, k0_pay17 (F := Ideal) v2 v74 v114 v154 v160 v161 v162 v166 v168 (ix2 p k)
          * k0_pay17 (F := Ideal) v2 v74 v114 v154 v160 v161 v162 v166 v168 (ix2 p k)) := by
  unfold k0_pay19
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]
theorem c_norm_apply (v2 : Vec Ideal S256x1024 .f32) (v74 v114 v154 : FVec Ideal S256x1024 .f32) (p : Fin 256) (u : Fin 1) :
    k0_pay20 (F := Ideal) v2 v74 v114 v154 (ix2 p u)
      = Ideal.sqrt (∑ k : Fin 1024, k0_pay16 (F := Ideal) v2 v74 v114 v154 (ix2 p k) * k0_pay16 (F := Ideal) v2 v74 v114 v154 (ix2 p k)) := by
  unfold k0_pay20
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]

/-- The stored hidden row: h' scaled by one plus the sigmoid of (cos(h', c') + 1) / 2. -/
theorem scaled_apply (v199 : FVec Ideal S256x1024 .f32) (v202 v206 v210 : FVec Ideal S256x1 .f32) (p : Fin 256) (q : Fin 1024) :
    k0_pay1 (F := Ideal) v199 v202 v206 v210 (ix2 p q)
      = v199 (ix2 p q) * (lit1 + Ideal.logistic (Ideal.div (Ideal.div (v202 (ix2 p (0 : Fin 1)))
          (max (v206 (ix2 p (0 : Fin 1))) epsCos * max (v210 (ix2 p (0 : Fin 1))) epsCos) + lit1) lit2)) := by
  unfold k0_pay1
  simp only [truncf_apply, mulf_apply, addf_apply, subf_apply, divf_apply, maximumf_apply, broadcast_apply, sqrt_apply, rsqrt_apply,
    tanh_apply, logistic_apply, broadcastTo_a1_ab_apply, shapeCast_a_a1_apply, multiReduction, Ideal.reduceAdd_def, rowSum_apply,
    mm_apply, shapeCast_self, broadcastTo_1b_ab_apply, shapeCast_1a_a_apply, shapeCast_a_1a_apply, constant_apply,
    Ideal.ofBits_zero_f32, zero_add, scalar_ofBits]

theorem pay3_apply (v1 : Vec Ideal S256x1024 .f32) (i : S256x1024.Idx) : k0_pay3 (F := Ideal) v1 i = v1 i := rfl
theorem pay4_eq (v : Vec Ideal S1024x1024 .bf16) : k0_pay4 (F := Ideal) v = v := shapeCast_self _ _
theorem pay6_eq (v : Vec Ideal S1024x1024 .bf16) : k0_pay6 (F := Ideal) v = v := shapeCast_self _ _
theorem pay7_eq (v : Vec Ideal S1024x1024 .bf16) : k0_pay7 (F := Ideal) v = v := shapeCast_self _ _
theorem pay9_eq (v : Vec Ideal S1024x1024 .bf16) : k0_pay9 (F := Ideal) v = v := shapeCast_self _ _
theorem pay10_eq (v : Vec Ideal S1024x1024 .bf16) : k0_pay10 (F := Ideal) v = v := shapeCast_self _ _
theorem pay11_eq (v : Vec Ideal S1x1024 .f32) : k0_pay11 (F := Ideal) v = v := shapeCast_self _ _
theorem pay13_eq (v : Vec Ideal S1x1024 .f32) : k0_pay13 (F := Ideal) v = v := shapeCast_self _ _

end Cert.KernelIdeal.Rows

end
-- ==== Proof.KernelBody.lean ====
/-
  What one grid point writes: the body's two stored blocks, at (p, q), are the cell's two result rows (CellSpec, the
  kernel's spelling) of row p of the point's x, hx and cx blocks, with the weights read through the rectangles the body
  loads: the four column blocks of W split into its input and hidden halves, and the matching pieces of b, gamma, beta.
-/
import proofs.«101928_j42683384987798_2_alg».proof.Proof.Gen.KernelIdeal.Frame
import proofs.«101928_j42683384987798_2_alg».proof.Proof.KernelRows

noncomputable section

namespace Cert.KernelIdeal.Rows

open Cert.KernelIdeal Cert.KernelIdeal.Gen Idealize.ShloMosaic Idealize.ShloMosaic.ValueIdx Idealize.ShloMosaic.RowRead Cert.Cell

theorem hz : (![0, 0] : Fin 2 → Nat) = fun _ => 0 := funext fun a => by fin_cases a <;> rfl

/-- The four gates' weights as the body loads them from the resident blocks of W, b, gamma and beta. -/
def gI (x5 : Vec Ideal S2048x4096 .bf16) (x6 : Vec Ideal S1x4096 .f32) (x7 x8 : Vec Ideal S4x1024 .f32) : Gate :=
  gateOf (View.ld x5 r0_3) (View.ld x5 r0_4) (View.ld x6 r0_5) (View.ld x7 r0_6) (View.ld x8 r0_6)
def gF (x5 : Vec Ideal S2048x4096 .bf16) (x6 : Vec Ideal S1x4096 .f32) (x7 x8 : Vec Ideal S4x1024 .f32) : Gate :=
  gateOf (View.ld x5 r0_7) (View.ld x5 r0_8) (View.ld x6 r0_9) (View.ld x7 r0_10) (View.ld x8 r0_10)
def gG (x5 : Vec Ideal S2048x4096 .bf16) (x6 : Vec Ideal S1x4096 .f32) (x7 x8 : Vec Ideal S4x1024 .f32) : Gate :=
  gateOf (View.ld x5 r0_11) (View.ld x5 r0_12) (View.ld x6 r0_13) (View.ld x7 r0_14) (View.ld x8 r0_14)
def gO (x5 : Vec Ideal S2048x4096 .bf16) (x6 : Vec Ideal S1x4096 .f32) (x7 x8 : Vec Ideal S4x1024 .f32) : Gate :=
  gateOf (View.ld x5 r0_15) (View.ld x5 r0_16) (View.ld x6 r0_17) (View.ld x7 r0_18) (View.ld x8 r0_18)

/-- The stored cell-state block. -/
theorem out10_apply (x0 x1 x2 : Vec Ideal S256x1024 .f32) (x3 : Vec Ideal S1024x1024 .bf16) (x4 : Vec Ideal S1x1024 .f32)
    (x5 : Vec Ideal S2048x4096 .bf16) (x6 : Vec Ideal S1x4096 .f32) (x7 x8 : Vec Ideal S4x1024 .f32) (p : Fin 256) (q : Fin 1024) :
    out0_10 (F := Ideal) x0 x1 x2 x3 x4 x5 x6 x7 x8 (ix2 p q)
      = cellK (fun k j => x3 (ix2 k j)) (fun j => x4 (ix2 (0 : Fin 1) j)) (gI x5 x6 x7 x8) (gF x5 x6 x7 x8) (gG x5 x6 x7 x8)
          (fun k => x0 (ix2 p k)) (fun k => x1 (ix2 p k)) (fun k => x2 (ix2 p k)) q := by
  unfold out0_10
  rw [View.canon_unit_zero hz]
  simp only [View.ld_unit_zero (S := S256x1024) hz, View.ld_unit_zero (S := S1024x1024) hz, View.ld_unit_zero (S := S1x1024) hz]
  simp only [cell_apply, gate_i_apply, gate_f_apply, gate_g_apply, xmod_apply, pay3_apply, pay4_eq, pay6_eq, pay7_eq, pay9_eq,
    pay10_eq, pay11_eq]
  simp only [cellK, cellState, gI, gF, gG]

/-- The stored hidden-state block. -/
theorem out9_apply (x0 x1 x2 : Vec Ideal S256x1024 .f32) (x3 : Vec Ideal S1024x1024 .bf16) (x4 : Vec Ideal S1x1024 .f32)
    (x5 : Vec Ideal S2048x4096 .bf16) (x6 : Vec Ideal S1x4096 .f32) (x7 x8 : Vec Ideal S4x1024 .f32) (p : Fin 256) (q : Fin 1024) :
    out0_9 (F := Ideal) x0 x1 x2 x3 x4 x5 x6 x7 x8 (ix2 p q)
      = hidK (fun k j => x3 (ix2 k j)) (fun j => x4 (ix2 (0 : Fin 1) j)) (gI x5 x6 x7 x8) (gF x5 x6 x7 x8) (gG x5 x6 x7 x8)
          (gO x5 x6 x7 x8) (fun k => x0 (ix2 p k)) (fun k => x1 (ix2 p k)) (fun k => x2 (ix2 p k)) q := by
  unfold out0_9
  rw [View.canon_unit_zero hz]
  simp only [View.ld_unit_zero (S := S256x1024) hz, View.ld_unit_zero (S := S1024x1024) hz, View.ld_unit_zero (S := S1x1024) hz]
  simp only [scaled_apply, hc_dot_apply, h_norm_apply, c_norm_apply, hidden_apply, cell_apply, gate_i_apply, gate_f_apply,
    gate_g_apply, prod_x_apply, prod_h_apply, xmod_apply, pay3_apply, pay4_eq, pay6_eq, pay7_eq, pay9_eq, pay10_eq, pay11_eq,
    pay13_eq]
  simp only [hidK, Cert.Cell.hidden, mixArg, cosSim, dot, cellK, cellState, gateLN, gateRaw, layerNorm, mean, gI, gF, gG, gO, gateOf]

/-! ## The same, with the blocks named as parts of the argument arrays -/

section Named
variable (X0 X1 X2 : Vec Ideal S256x1024 .f32) (X3 : Vec Ideal S1024x1024 .bf16) (X4 : Vec Ideal S1x1024 .f32)
  (X5 : Vec Ideal S2048x4096 .bf16) (X6 : Vec Ideal S1x4096 .f32) (X7 X8 : Vec Ideal S4x1024 .f32)
  (x hx cx : S8192x1024.Idx → EReal) (W : S2048x4096.Idx → EReal) (b : S4096.Idx → EReal) (Wm : S1024x1024.Idx → EReal)
  (bm : S1024.Idx → EReal) (gam bet : S4x1024.Idx → EReal)

/-- The loaded gate weights are the gates' pieces of W, b, gamma and beta. -/
theorem gates_eq (h5 : ∀ y, X5 y = W y) (h6 : ∀ (u : Fin 1) (J : Fin 4096), X6 (ix2 u J) = b (ix1 J))
    (h7 : ∀ y, X7 y = gam y) (h8 : ∀ y, X8 y = bet y) :
    gI X5 X6 X7 X8 = gateAt W b gam bet 0 0 (by omega) (by omega)
    ∧ gF X5 X6 X7 X8 = gateAt W b gam bet 1024 1 (by omega) (by omega)
    ∧ gG X5 X6 X7 X8 = gateAt W b gam bet 2048 2 (by omega) (by omega)
    ∧ gO X5 X6 X7 X8 = gateAt W b gam bet 3072 3 (by omega) (by omega) := by
  refine ⟨?_, ?_, ?_, ?_⟩
  · unfold gI gateOf gateAt subBlock vecSeg rowSeg
    rw [Gate.mk.injEq]
    refine ⟨?_, ?_, ?_, ?_, ?_⟩
    · funext k j; exact (ld_unit2_apply X5 0 0 _ k j).trans (h5 _)
    · funext k j; exact (ld_unit2_apply X5 1024 0 _ k j).trans (h5 _)
    · funext j; exact (ld_unit2_apply X6 0 0 _ (0 : Fin 1) j).trans (h6 _ _)
    · funext j; exact (ld_unit2_apply X7 0 0 _ (0 : Fin 1) j).trans (h7 _)
    · funext j; exact (ld_unit2_apply X8 0 0 _ (0 : Fin 1) j).trans (h8 _)
  · unfold gF gateOf gateAt subBlock vecSeg rowSeg
    rw [Gate.mk.injEq]
    refine ⟨?_, ?_, ?_, ?_, ?_⟩
    · funext k j; exact (ld_unit2_apply X5 0 1024 _ k j).trans (h5 _)
    · funext k j; exact (ld_unit2_apply X5 1024 1024 _ k j).trans (h5 _)
    · funext j; exact (ld_unit2_apply X6 0 1024 _ (0 : Fin 1) j).trans (h6 _ _)
    · funext j; exact (ld_unit2_apply X7 1 0 _ (0 : Fin 1) j).trans (h7 _)
    · funext j; exact (ld_unit2_apply X8 1 0 _ (0 : Fin 1) j).trans (h8 _)
  · unfold gG gateOf gateAt subBlock vecSeg rowSeg
    rw [Gate.mk.injEq]
    refine ⟨?_, ?_, ?_, ?_, ?_⟩
    · funext k j; exact (ld_unit2_apply X5 0 2048 _ k j).trans (h5 _)
    · funext k j; exact (ld_unit2_apply X5 1024 2048 _ k j).trans (h5 _)
    · funext j; exact (ld_unit2_apply X6 0 2048 _ (0 : Fin 1) j).trans (h6 _ _)
    · funext j; exact (ld_unit2_apply X7 2 0 _ (0 : Fin 1) j).trans (h7 _)
    · funext j; exact (ld_unit2_apply X8 2 0 _ (0 : Fin 1) j).trans (h8 _)
  · unfold gO gateOf gateAt subBlock vecSeg rowSeg
    rw [Gate.mk.injEq]
    refine ⟨?_, ?_, ?_, ?_, ?_⟩
    · funext k j; exact (ld_unit2_apply X5 0 3072 _ k j).trans (h5 _)
    · funext k j; exact (ld_unit2_apply X5 1024 3072 _ k j).trans (h5 _)
    · funext j; exact (ld_unit2_apply X6 0 3072 _ (0 : Fin 1) j).trans (h6 _ _)
    · funext j; exact (ld_unit2_apply X7 3 0 _ (0 : Fin 1) j).trans (h7 _)
    · funext j; exact (ld_unit2_apply X8 3 0 _ (0 : Fin 1) j).trans (h8 _)

/-- A point whose batch blocks are rows r0 … r0 + 255 writes those rows of the two result arrays. -/
theorem point10_of (r0 : ℕ) (hr0 : r0 + 256 ≤ 8192)
    (h0 : ∀ (p : Fin 256) (k : Fin 1024), X0 (ix2 p k) = x (ix2 ⟨r0 + p.val, by omega⟩ k))
    (h1 : ∀ (p : Fin 256) (k : Fin 1024), X1 (ix2 p k) = hx (ix2 ⟨r0 + p.val, by omega⟩ k))
    (h2 : ∀ (p : Fin 256) (k : Fin 1024), X2 (ix2 p k) = cx (ix2 ⟨r0 + p.val, by omega⟩ k))
    (h3 : ∀ y, X3 y = Wm y) (h4 : ∀ (u : Fin 1) (j : Fin 1024), X4 (ix2 u j) = bm (ix1 j))
    (h5 : ∀ y, X5 y = W y) (h6 : ∀ (u : Fin 1) (J : Fin 4096), X6 (ix2 u J) = b (ix1 J))
    (h7 : ∀ y, X7 y = gam y) (h8 : ∀ y, X8 y = bet y) (p : Fin 256) (q : Fin 1024) :
    out0_10 (F := Ideal) X0 X1 X2 X3 X4 X5 X6 X7 X8 (ix2 p q) = cellAt x hx cx W b Wm bm gam bet ⟨r0 + p.val, by omega⟩ q := by
  obtain ⟨gi, gf, gg, go⟩ := gates_eq X5 X6 X7 X8 W b gam bet h5 h6 h7 h8
  rw [out10_apply, gi, gf, gg]
  unfold cellAt
  simp only [h0, h1, h2, h3, h4]

theorem point9_of (r0 : ℕ) (hr0 : r0 + 256 ≤ 8192)
    (h0 : ∀ (p : Fin 256) (k : Fin 1024), X0 (ix2 p k) = x (ix2 ⟨r0 + p.val, by omega⟩ k))
    (h1 : ∀ (p : Fin 256) (k : Fin 1024), X1 (ix2 p k) = hx (ix2 ⟨r0 + p.val, by omega⟩ k))
    (h2 : ∀ (p : Fin 256) (k : Fin 1024), X2 (ix2 p k) = cx (ix2 ⟨r0 + p.val, by omega⟩ k))
    (h3 : ∀ y, X3 y = Wm y) (h4 : ∀ (u : Fin 1) (j : Fin 1024), X4 (ix2 u j) = bm (ix1 j))
    (h5 : ∀ y, X5 y = W y) (h6 : ∀ (u : Fin 1) (J : Fin 4096), X6 (ix2 u J) = b (ix1 J))
    (h7 : ∀ y, X7 y = gam y) (h8 : ∀ y, X8 y = bet y) (p : Fin 256) (q : Fin 1024) :
    out0_9 (F := Ideal) X0 X1 X2 X3 X4 X5 X6 X7 X8 (ix2 p q) = hidAt x hx cx W b Wm bm gam bet ⟨r0 + p.val, by omega⟩ q := by
  obtain ⟨gi, gf, gg, go⟩ := gates_eq X5 X6 X7 X8 W b gam bet h5 h6 h7 h8
  rw [out9_apply, gi, gf, gg, go]
  unfold hidAt
  simp only [h0, h1, h2, h3, h4]

end Named

end Cert.KernelIdeal.Rows

end
-- ==== Proof.KernelArrays.lean ====
/-
  From blocks to arrays. Grid point t holds rows 256·t … 256·t + 255 of x, hx and cx, and the whole of the six weight
  arrays as the host prepared them (W and Wm rounded for the matrix unit, which is the identity on the extended reals;
  b and bm as one-row matrices). So what point t writes back is block t of the cell's two result arrays (CellSpec), the
  32 blocks cover the arrays, and the arrays end holding those functions of the nine arguments.
-/
import proofs.«101928_j42683384987798_2_alg».proof.Proof.Gen.KernelIdeal.Value
import proofs.«101928_j42683384987798_2_alg».proof.Proof.KernelBody
import Idealize.ShloMosaic.Lib.StableHlo.Run

noncomputable section

namespace Cert.KernelIdeal.Arrays

open Cert.KernelIdeal Cert.KernelIdeal.Gen Cert.KernelIdeal.Rows Idealize.ShloMosaic Idealize.ShloMosaic.TcCoe Idealize.SL.Sem
open Idealize.ShloMosaic.ValueIdx Idealize.ShloMosaic.RowRead Cert.Cell
open Idealize.ShloMosaic.Pipeline (Dat)

variable (m : (ℓ : Loc nD τ sig) → Buf (Elt Ideal) ℓ) (ρ : Dev nD → PrngReg)

/-- The printed index maps, decided over the 32 grid points: the three batch windows and the two results move one
    row block per point; the six weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem t_lt (t : Fin cfg0.N) : t.val < 32 := by
  have := t.isLt; have hN : cfg0.N = 32 := N_0; omega

/-! ## The host's preparation of the weights -/

theorem V_W (c : Dev nD) : (V m c main_v0 : S2048x4096.Idx → EReal) = (m ((c : Thread nD τ).loc main_arg3) : S2048x4096.Idx → EReal) := by
  have e : (V m c main_v0 : FVec Ideal S2048x4096 .bf16)
      = (truncf (F := Ideal) .bf16 (m ((c : Thread nD τ).loc main_arg3) : FVec Ideal S2048x4096 .f32) bitsLt_bf16_f32 : FVec Ideal S2048x4096 .bf16) := by
    dsimp only [Gen.V, Gen.hostOps0]; after_results
  exact e.trans rfl

theorem V_Wm (c : Dev nD) : (V m c main_v1 : S1024x1024.Idx → EReal) = (m ((c : Thread nD τ).loc main_arg5) : S1024x1024.Idx → EReal) := by
  have e : (V m c main_v1 : FVec Ideal S1024x1024 .bf16)
      = (truncf (F := Ideal) .bf16 (m ((c : Thread nD τ).loc main_arg5) : FVec Ideal S1024x1024 .f32) bitsLt_bf16_f32 : FVec Ideal S1024x1024 .bf16) := by
    dsimp only [Gen.V, Gen.hostOps0]; after_results
  exact e.trans rfl

theorem V_b (c : Dev nD) (u : Fin 1) (J : Fin 4096) :
    (V m c main_v2 : S1x4096.Idx → EReal) (ix2 u J) = (m ((c : Thread nD τ).loc main_arg4) : S4096.Idx → EReal) (ix1 J) := by
  have e : (V m c main_v2 : S1x4096.Idx → EReal)
      = shapeCast S1x4096 (m ((c : Thread nD τ).loc main_arg4) : S4096.Idx → EReal) shapeCasts_S4096_S1x4096 := by
    dsimp only [Gen.V, Gen.hostOps0]; after_results; rfl
  rw [e]; exact shapeCast_a_1a_apply _ _ _ _

theorem V_bm (c : Dev nD) (u : Fin 1) (j : Fin 1024) :
    (V m c main_v3 : S1x1024.Idx → EReal) (ix2 u j) = (m ((c : Thread nD τ).loc main_arg6) : S1024.Idx → EReal) (ix1 j) := by
  have e : (V m c main_v3 : S1x1024.Idx → EReal)
      = shapeCast S1x1024 (m ((c : Thread nD τ).loc main_arg6) : S1024.Idx → EReal) shapeCasts_S1024_S1x1024 := by
    dsimp only [Gen.V, Gen.hostOps0]; after_results; rfl
  rw [e]; exact shapeCast_a_1a_apply _ _ _ _

/-! ## The blocks a point stages -/

/-- Row p of point t's block of x is row 256·t + p of x; the same for hx and cx. -/
theorem iblk0_apply (c : Dev nD) (t : Fin cfg0.N) (p : Fin 256) (k : Fin 1024) :
    (iblk m c 0 t : S256x1024.Idx → EReal) (ix2 p k)
      = (m ((c : Thread nD τ).loc main_arg0) : S8192x1024.Idx → EReal) (ix2 ⟨256 * t.val + p.val, by have := t_lt t; omega⟩ k) := by
  obtain ⟨e00, e01, -⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 2) * 256 + 1 * p.val = 256 * t.val + p.val; rw [e00]; omega
  | ⟨1, _⟩ => show win0_0.index t (1 : Fin 2) * 1024 + 1 * k.val = k.val; rw [e01]; omega

theorem iblk1_apply (c : Dev nD) (t : Fin cfg0.N) (p : Fin 256) (k : Fin 1024) :
    (iblk m c 1 t : S256x1024.Idx → EReal) (ix2 p k)
      = (m ((c : Thread nD τ).loc main_arg1) : S8192x1024.Idx → EReal) (ix2 ⟨256 * t.val + p.val, by have := t_lt t; omega⟩ k) := by
  obtain ⟨-, -, e10, e11, -⟩ := idx_facts t
  unfold iblk
  rw [View.read_apply]
  show V m c main_arg1 _ = _
  rw [V_main_arg1 m c]
  refine congrArg _ (funext fun a => Fin.ext ?_)
  match a with
  | ⟨0, _⟩ => show win0_1.index t (0 : Fin 2) * 256 + 1 * p.val = 256 * t.val + p.val; rw [e10]; omega
  | ⟨1, _⟩ => show win0_1.index t (1 : Fin 2) * 1024 + 1 * k.val = k.val; rw [e11]; omega

theorem iblk2_apply (c : Dev nD) (t : Fin cfg0.N) (p : Fin 256) (k : Fin 1024) :
    (iblk m c 2 t : S256x1024.Idx → EReal) (ix2 p k)
      = (m ((c : Thread nD τ).loc main_arg2) : S8192x1024.Idx → EReal) (ix2 ⟨256 * t.val + p.val, by have := t_lt t; omega⟩ k) := by
  obtain ⟨-, -, -, -, e20, e21, -⟩ := idx_facts t
  unfold iblk
  rw [View.read_apply]
  show V m c main_arg2 _ = _
  rw [V_main_arg2 m c]
  refine congrArg _ (funext fun a => Fin.ext ?_)
  match a with
  | ⟨0, _⟩ => show win0_2.index t (0 : Fin 2) * 256 + 1 * p.val = 256 * t.val + p.val; rw [e20]; omega
  | ⟨1, _⟩ => show win0_2.index t (1 : Fin 2) * 1024 + 1 * k.val = k.val; rw [e21]; omega

/-- The resident windows hold the whole of their arrays at every point. -/
theorem iblk3_apply (c : Dev nD) (t : Fin cfg0.N) (y : S1024x1024.Idx) :
    (iblk m c 3 t : S1024x1024.Idx → EReal) y = (m ((c : Thread nD τ).loc main_arg5) : S1024x1024.Idx → EReal) y := by
  obtain ⟨-, -, -, -, -, -, e30, e31, -⟩ := idx_facts t
  unfold iblk
  rw [View.read_apply]
  show (V m c main_v1 : S1024x1024.Idx → EReal) _ = _
  rw [V_Wm m c]
  refine congrArg _ (funext fun a => Fin.ext ?_)
  match a with
  | ⟨0, _⟩ => show win0_3.index t (0 : Fin 2) * 1024 + 1 * (y 0).val = (y 0).val; rw [e30]; omega
  | ⟨1, _⟩ => show win0_3.index t (1 : Fin 2) * 1024 + 1 * (y 1).val = (y 1).val; rw [e31]; omega

theorem iblk4_apply (c : Dev nD) (t : Fin cfg0.N) (u : Fin 1) (j : Fin 1024) :
    (iblk m c 4 t : S1x1024.Idx → EReal) (ix2 u j) = (m ((c : Thread nD τ).loc main_arg6) : S1024.Idx → EReal) (ix1 j) := by
  obtain ⟨-, -, -, -, -, -, -, -, e40, e41, -⟩ := idx_facts t
  unfold iblk
  rw [View.read_apply]
  show (V m c main_v3 : S1x1024.Idx → EReal) _ = _
  refine Eq.trans (congrArg _ (funext fun a => Fin.ext ?_)) (V_bm m c u j)
  match a with
  | ⟨0, _⟩ => show win0_4.index t (0 : Fin 2) * 1 + 1 * u.val = u.val; rw [e40]; omega
  | ⟨1, _⟩ => show win0_4.index t (1 : Fin 2) * 1024 + 1 * j.val = j.val; rw [e41]; omega

theorem iblk5_apply (c : Dev nD) (t : Fin cfg0.N) (y : S2048x4096.Idx) :
    (iblk m c 5 t : S2048x4096.Idx → EReal) y = (m ((c : Thread nD τ).loc main_arg3) : S2048x4096.Idx → EReal) y := by
  obtain ⟨-, -, -, -, -, -, -, -, -, -, e50, e51, -⟩ := idx_facts t
  unfold iblk
  rw [View.read_apply]
  show (V m c main_v0 : S2048x4096.Idx → EReal) _ = _
  rw [V_W m c]
  refine congrArg _ (funext fun a => Fin.ext ?_)
  match a with
  | ⟨0, _⟩ => show win0_5.index t (0 : Fin 2) * 2048 + 1 * (y 0).val = (y 0).val; rw [e50]; omega
  | ⟨1, _⟩ => show win0_5.index t (1 : Fin 2) * 4096 + 1 * (y 1).val = (y 1).val; rw [e51]; omega

theorem iblk6_apply (c : Dev nD) (t : Fin cfg0.N) (u : Fin 1) (J : Fin 4096) :
    (iblk m c 6 t : S1x4096.Idx → EReal) (ix2 u J) = (m ((c : Thread nD τ).loc main_arg4) : S4096.Idx → EReal) (ix1 J) := by
  obtain ⟨-, -, -, -, -, -, -, -, -, -, -, -, e60, e61, -⟩ := idx_facts t
  unfold iblk
  rw [View.read_apply]
  show (V m c main_v2 : S1x4096.Idx → EReal) _ = _
  refine Eq.trans (congrArg _ (funext fun a => Fin.ext ?_)) (V_b m c u J)
  match a with
  | ⟨0, _⟩ => show win0_6.index t (0 : Fin 2) * 1 + 1 * u.val = u.val; rw [e60]; omega
  | ⟨1, _⟩ => show win0_6.index t (1 : Fin 2) * 4096 + 1 * J.val = J.val; rw [e61]; omega

theorem iblk7_apply (c : Dev nD) (t : Fin cfg0.N) (y : S4x1024.Idx) :
    (iblk m c 7 t : S4x1024.Idx → EReal) y = (m ((c : Thread nD τ).loc main_arg7) : S4x1024.Idx → EReal) y := by
  obtain ⟨-, -, -, -, -, -, -, -, -, -, -, -, -, -, e70, e71, -⟩ := idx_facts t
  unfold iblk
  rw [View.read_apply]
  show V m c main_arg7 _ = _
  rw [V_main_arg7 m c]
  refine congrArg _ (funext fun a => Fin.ext ?_)
  match a with
  | ⟨0, _⟩ => show win0_7.index t (0 : Fin 2) * 4 + 1 * (y 0).val = (y 0).val; rw [e70]; omega
  | ⟨1, _⟩ => show win0_7.index t (1 : Fin 2) * 1024 + 1 * (y 1).val = (y 1).val; rw [e71]; omega

theorem iblk8_apply (c : Dev nD) (t : Fin cfg0.N) (y : S4x1024.Idx) :
    (iblk m c 8 t : S4x1024.Idx → EReal) y = (m ((c : Thread nD τ).loc main_arg8) : S4x1024.Idx → EReal) y := by
  obtain ⟨-, -, -, -, -, -, -, -, -, -, -, -, -, -, -, -, e80, e81, -⟩ := idx_facts t
  unfold iblk
  rw [View.read_apply]
  show V m c main_arg8 _ = _
  rw [V_main_arg8 m c]
  refine congrArg _ (funext fun a => Fin.ext ?_)
  match a with
  | ⟨0, _⟩ => show win0_8.index t (0 : Fin 2) * 4 + 1 * (y 0).val = (y 0).val; rw [e80]; omega
  | ⟨1, _⟩ => show win0_8.index t (1 : Fin 2) * 1024 + 1 * (y 1).val = (y 1).val; rw [e81]; omega

/-! ## What a point writes back, and the arrays after the run -/

/-- The two result arrays as functions of the arguments' launch contents. -/
abbrev hidArr (c : Dev nD) : S8192x1024.Idx → EReal :=
  hidOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
abbrev cellArr (c : Dev nD) : S8192x1024.Idx → EReal :=
  cellOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))

theorem point9 (c : Dev nD) (t : Fin cfg0.N) (y : S256x1024.Idx) (i : S8192x1024.Idx)
    (hi0 : (i 0).val = 256 * t.val + (y 0).val) (hi1 : (i 1).val = (y 1).val) :
    out0_9 (F := Ideal) (iblk m c 0 t) (iblk m c 1 t) (iblk m c 2 t) (iblk m c 3 t) (iblk m c 4 t) (iblk m c 5 t) (iblk m c 6 t) (iblk m c 7 t) (iblk m c 8 t) y = hidArr m c i := by
  obtain ⟨p, q, rfl⟩ : ∃ (p : Fin 256) (q : Fin 1024), y = ix2 p q := ⟨y 0, y 1, eq_ix2 y⟩
  have ht := t_lt t
  refine (point9_of (iblk m c 0 t) (iblk m c 1 t) (iblk m c 2 t) (iblk m c 3 t) (iblk m c 4 t) (iblk m c 5 t) (iblk m c 6 t) (iblk m c 7 t) (iblk m c 8 t)
    (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
    (256 * t.val) (by omega) (iblk0_apply m c t) (iblk1_apply m c t) (iblk2_apply m c t) (iblk3_apply m c t) (iblk4_apply m c t)
    (iblk5_apply m c t) (iblk6_apply m c t) (iblk7_apply m c t) (iblk8_apply m c t) p q).trans ?_
  have e1 : (⟨256 * t.val + p.val, by omega⟩ : Fin 8192) = ⟨(i 0).val, idx2_lt0 i⟩ := Fin.ext hi0.symm
  have e2 : q = ⟨(i 1).val, idx2_lt1 i⟩ := Fin.ext hi1.symm
  show _ = hidAt _ _ _ _ _ _ _ _ _ _ _
  rw [e1, e2]

theorem point10 (c : Dev nD) (t : Fin cfg0.N) (y : S256x1024.Idx) (i : S8192x1024.Idx)
    (hi0 : (i 0).val = 256 * t.val + (y 0).val) (hi1 : (i 1).val = (y 1).val) :
    out0_10 (F := Ideal) (iblk m c 0 t) (iblk m c 1 t) (iblk m c 2 t) (iblk m c 3 t) (iblk m c 4 t) (iblk m c 5 t) (iblk m c 6 t) (iblk m c 7 t) (iblk m c 8 t) y = cellArr m c i := by
  obtain ⟨p, q, rfl⟩ : ∃ (p : Fin 256) (q : Fin 1024), y = ix2 p q := ⟨y 0, y 1, eq_ix2 y⟩
  have ht := t_lt t
  refine (point10_of (iblk m c 0 t) (iblk m c 1 t) (iblk m c 2 t) (iblk m c 3 t) (iblk m c 4 t) (iblk m c 5 t) (iblk m c 6 t) (iblk m c 7 t) (iblk m c 8 t)
    (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
    (256 * t.val) (by omega) (iblk0_apply m c t) (iblk1_apply m c t) (iblk2_apply m c t) (iblk3_apply m c t) (iblk4_apply m c t)
    (iblk5_apply m c t) (iblk6_apply m c t) (iblk7_apply m c t) (iblk8_apply m c t) p q).trans ?_
  have e1 : (⟨256 * t.val + p.val, by omega⟩ : Fin 8192) = ⟨(i 0).val, idx2_lt0 i⟩ := Fin.ext hi0.symm
  have e2 : q = ⟨(i 1).val, idx2_lt1 i⟩ := Fin.ext hi1.symm
  show _ = cellAt _ _ _ _ _ _ _ _ _ _ _
  rw [e1, e2]

/-- What point t writes back to the hidden-state array is block t of `hidArr`. -/
theorem flushed9_eq (c : Dev nD) (t : Fin cfg0.N) :
    (dats m 0 c).flushed 9 t = ((cfg0.win 9).blk t).view.read (Elt Ideal) (hidArr m c) := by
  obtain ⟨-, -, -, -, -, -, -, -, -, -, -, -, -, -, -, -, -, -, e90, e91, -⟩ := idx_facts t
  rw [Value.flushed9]
  funext j
  show out0_9 (F := Ideal) (iblk m c 0 t) (iblk m c 1 t) (iblk m c 2 t) (iblk m c 3 t) (iblk m c 4 t) (iblk m c 5 t) (iblk m c 6 t) (iblk m c 7 t) (iblk m c 8 t) j = hidArr m c (((cfg0.win 9).blk t).view.emb j)
  refine point9 m c t j _ ?_ ?_
  · show win0_9.index t (0 : Fin 2) * 256 + 1 * (j 0).val = 256 * t.val + (j 0).val; rw [e90]; omega
  · show win0_9.index t (1 : Fin 2) * 1024 + 1 * (j 1).val = (j 1).val; rw [e91]; omega

theorem flushed10_eq (c : Dev nD) (t : Fin cfg0.N) :
    (dats m 0 c).flushed 10 t = ((cfg0.win 10).blk t).view.read (Elt Ideal) (cellArr m c) := by
  obtain ⟨-, -, -, -, -, -, -, -, -, -, -, -, -, -, -, -, -, -, -, -, e100, e101⟩ := idx_facts t
  rw [Value.flushed10]
  funext j
  show out0_10 (F := Ideal) (iblk m c 0 t) (iblk m c 1 t) (iblk m c 2 t) (iblk m c 3 t) (iblk m c 4 t) (iblk m c 5 t) (iblk m c 6 t) (iblk m c 7 t) (iblk m c 8 t) j = cellArr m c (((cfg0.win 10).blk t).view.emb j)
  refine point10 m c t j _ ?_ ?_
  · show win0_10.index t (0 : Fin 2) * 256 + 1 * (j 0).val = 256 * t.val + (j 0).val; rw [e100]; omega
  · show win0_10.index t (1 : Fin 2) * 1024 + 1 * (j 1).val = (j 1).val; rw [e101]; omega

/-- Every index of a result array lies in the block of the point that holds its row. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  let t : Fin cfg0.N := ⟨(i 0).val / 256, by omega⟩
  obtain ⟨-, -, -, -, -, -, -, -, -, -, -, -, -, -, -, -, -, -, e90, e91, -⟩ := idx_facts t
  have htv : t.val = (i 0).val / 256 := rfl
  refine ⟨t, flush0_9 t, ?_⟩
  show i ∈ ((View.whole main_v4_0).slice (win0_9.rect t)).set
  rw [View.set_slice_whole, Rect.mem_set_unit]
  intro a
  match a with
  | ⟨0, _⟩ => show win0_9.index t (0 : Fin 2) * 256 ≤ (i 0).val ∧ (i 0).val < win0_9.index t (0 : Fin 2) * 256 + 256; rw [e90, htv]; omega
  | ⟨1, _⟩ => show win0_9.index t (1 : Fin 2) * 1024 ≤ (i 1).val ∧ (i 1).val < win0_9.index t (1 : Fin 2) * 1024 + 1024; rw [e91]; omega

theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  let t : Fin cfg0.N := ⟨(i 0).val / 256, by omega⟩
  obtain ⟨-, -, -, -, -, -, -, -, -, -, -, -, -, -, -, -, -, -, -, -, e100, e101⟩ := idx_facts t
  have htv : t.val = (i 0).val / 256 := rfl
  refine ⟨t, flush0_10 t, ?_⟩
  show i ∈ ((View.whole main_v4_1).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; rw [e100, htv]; omega
  | ⟨1, _⟩ => show win0_10.index t (1 : Fin 2) * 1024 ≤ (i 1).val ∧ (i 1).val < win0_10.index t (1 : Fin 2) * 1024 + 1024; rw [e101]; omega

/-- The result arrays after the run. -/
theorem final9 (c : Dev nD) : (dats m 0 c).arrAt 9 cfg0.N = hidArr m c :=
  (dats m 0 c).arrAt_eq_of_cover 9 (hidArr m c) (fun t _ => flushed9_eq m c t) cover9
theorem final10 (c : Dev nD) : (dats m 0 c).arrAt 10 cfg0.N = cellArr m c :=
  (dats m 0 c).arrAt_eq_of_cover 10 (cellArr m c) (fun t _ => flushed10_eq m c t) cover10

/-- The kernel's run, read: both results at the cell's functions of the arguments' launch contents. -/
theorem run : θ_run defs (onTc (τ := τ) (main (F := Ideal))) ⟨m, fun _ => 0, ρ⟩ fun r => ∀ c : Dev nD,
      r.2.mem ((c : Thread nD τ).loc main_v4_0) = hidArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.Arrays

end
-- ==== Proof.ReferenceRows.lean ====
/-
  The reference, read row by row. Each named stage of the host program (the generated module's `val_…` functions of the
  arguments) is read at batch row r as the cell's row function (CellSpec, the reference's spelling) of row r of x, hx
  and cx: a host sum over axis 1 is its start value plus the sum of the row, a dot_general the sum over the contracted
  index, and the product with the concatenation [x_mod, hx] splits into the sum over its first 1024 columns against the
  input half of W plus the sum over the last 1024 against the hidden half.
-/
import proofs.«101928_j42683384987798_2_alg».proof.Proof.RefRead
import proofs.«101928_j42683384987798_2_alg».proof.Proof.LibIndexRead
import proofs.«101928_j42683384987798_2_alg».proof.Proof.CellSpec
import Idealize.ShloMosaic.PureOps.Ideal.Laws
import Idealize.ShloMosaic.Lib.ValueIdx
import Idealize.ShloMosaic.Lib.ValueLayout

noncomputable section

namespace Cert.ReferenceIdeal.Rows

open Cert.ReferenceIdeal Cert.ReferenceIdeal.Gen Cert.ReferenceIdeal.Read Idealize.ShloMosaic Idealize.ShloMosaic.ValueIdx Idealize.ShloMosaic.RowRead Cert.Cell

/-! ## The host's operations of one row -/

theorem hdiv_apply {s : Shape} {φ : FTy} (a b : FVec Ideal s φ) (i : s.Idx) : Host.divf a b i = Ideal.div (a i) (b i) := rfl
theorem hneg_apply {s : Shape} {φ : FTy} (a : FVec Ideal s φ) (i : s.Idx) : Host.negf a i = -(a i) := rfl
theorem hexp_apply {s : Shape} {φ : FTy} (a : FVec Ideal s φ) (i : s.Idx) : Host.exp a i = Ideal.exp (a i) := rfl
theorem hsqrt_apply {s : Shape} {φ : FTy} (a : FVec Ideal s φ) (i : s.Idx) : Host.sqrt a i = Ideal.sqrt (a i) := rfl
theorem hrsqrt_apply {s : Shape} {φ : FTy} (a : FVec Ideal s φ) (i : s.Idx) : Host.rsqrt a i = Ideal.rsqrt (a i) := rfl
theorem htanh_apply {s : Shape} {φ : FTy} (a : FVec Ideal s φ) (i : s.Idx) : Host.tanh a i = Ideal.tanh (a i) := rfl

/-- A host sum over axis 1 of an [8192, 1024] array, at row r: the start value plus the sum of the row. -/
theorem hostRowSum_apply (x : FVec Ideal S8192x1024 .f32) (init : S_.Idx → EReal) (r : Fin 8192) :
    Host.reduceAdd (F := Ideal) x init reducesTo_S8192x1024_S8192_d1 h_S_ (ix1 r)
      = init (Shape.Idx.first h_S_) + ∑ k : Fin 1024, x (ix2 r k) := by
  simp only [Host.reduceAdd, Ideal.hostReduceAdd_def]
  rw [Ideal.hostReduceAdd_single reducesTo_S8192x1024_S8192_d1 (by decide)]
  refine congrArg (_ + ·) (Finset.sum_congr rfl fun k _ => ?_)
  exact congrArg x (funext fun a => Fin.ext (by match a with | ⟨0, _⟩ => rfl | ⟨1, _⟩ => rfl))

/-- x·Wm at (r, j): the sum over k of x(r, k)·Wm(k, j). -/
theorem hostDot_apply (x : FVec Ideal S8192x1024 .f32) (w : FVec Ideal S1024x1024 .f32) (r : Fin 8192) (j : Fin 1024) :
    Host.dotGeneral dot_S8192x1024_S1024x1024_S8192x1024_1_0_0_1_n_n none x w (ix2 r j)
      = ∑ k : Fin 1024, x (ix2 r k) * w (ix2 k j) := by
  refine (val_main_v0_apply x w (ix2 r j)).trans (Finset.sum_congr rfl fun k _ => ?_)
  have el : lidx_main_v0 (ix2 r j) k = ix2 r k := funext fun a => Fin.ext (by match a with | ⟨0, _⟩ => rfl | ⟨1, _⟩ => rfl)
  have er : ridx_main_v0 (ix2 r j) k = ix2 k j := funext fun a => Fin.ext (by match a with | ⟨0, _⟩ => rfl | ⟨1, _⟩ => rfl)
  rw [el, er]

/-- [A, B]·W at (r, J), A and B joined along the columns: the sum over A's 1024 columns against rows 0 … 1023 of W plus
    the sum over B's against rows 1024 … 2047. -/
theorem hostDotCat_apply (A B : FVec Ideal S8192x1024 .f32) (w : FVec Ideal S2048x4096 .f32) (r : Fin 8192) (J : Fin 4096) :
    Host.dotGeneral dot_S8192x2048_S2048x4096_S8192x4096_1_0_0_1_n_n none
        (concatenate S8192x2048 1 [⟨S8192x1024, A⟩, ⟨S8192x1024, B⟩] concatenates_S8192x1024_S8192x1024_S8192x2048_d1) w (ix2 r J)
      = (∑ k : Fin 1024, A (ix2 r k) * w (ix2 ⟨0 + k.val, by omega⟩ J))
        + ∑ k : Fin 1024, B (ix2 r k) * w (ix2 ⟨1024 + k.val, by omega⟩ J) := by
  generalize hC : concatenate S8192x2048 1 [⟨S8192x1024, A⟩, ⟨S8192x1024, B⟩] concatenates_S8192x1024_S8192x1024_S8192x2048_d1 = C
  simp only [Host.dotGeneral]
  rw [Ideal.dotGeneral_apply, ← Equiv.sum_comp (ValueIdx.contrEquiv1 dot_S8192x2048_S2048x4096_S8192x4096_1_0_0_1_n_n 2048 rfl rfl).symm]
  have step : ∀ k : Fin 2048,
      C (dot_S8192x2048_S2048x4096_S8192x4096_1_0_0_1_n_n.lhsIdx (ix2 r J) ((ValueIdx.contrEquiv1 dot_S8192x2048_S2048x4096_S8192x4096_1_0_0_1_n_n 2048 rfl rfl).symm k))
        * w (dot_S8192x2048_S2048x4096_S8192x4096_1_0_0_1_n_n.rhsIdx (ix2 r J) ((ValueIdx.contrEquiv1 dot_S8192x2048_S2048x4096_S8192x4096_1_0_0_1_n_n 2048 rfl rfl).symm k))
      = C (ix2 r k) * w (ix2 k J) := by
    intro k
    have hk := ValueIdx.contrEquiv1_symm_val dot_S8192x2048_S2048x4096_S8192x4096_1_0_0_1_n_n 2048 rfl rfl k
    have el : dot_S8192x2048_S2048x4096_S8192x4096_1_0_0_1_n_n.lhsIdx (ix2 r J) ((ValueIdx.contrEquiv1 dot_S8192x2048_S2048x4096_S8192x4096_1_0_0_1_n_n 2048 rfl rfl).symm k) = ix2 r k := funext fun a => Fin.ext (by
      match a with
      | ⟨0, _⟩ => exact lhs_main_v25_0 _ _
      | ⟨1, _⟩ => exact (lhs_main_v25_1 _ _).trans hk)
    have er : dot_S8192x2048_S2048x4096_S8192x4096_1_0_0_1_n_n.rhsIdx (ix2 r J) ((ValueIdx.contrEquiv1 dot_S8192x2048_S2048x4096_S8192x4096_1_0_0_1_n_n 2048 rfl rfl).symm k) = ix2 k J := funext fun a => Fin.ext (by
      match a with
      | ⟨0, _⟩ => exact (rhs_main_v25_0 _ _).trans hk
      | ⟨1, _⟩ => exact rhs_main_v25_1 _ _)
    rw [el, er]
  refine (Finset.sum_congr rfl fun k _ => step k).trans ?_
  refine (Fin.sum_univ_add (a := 1024) (b := 1024) fun k : Fin (1024 + 1024) => C (ix2 r k) * w (ix2 k J)).trans ?_
  subst hC
  refine congrArg₂ (· + ·) (Finset.sum_congr rfl fun k _ => ?_) (Finset.sum_congr rfl fun k _ => ?_)
  · have hl : concatenate S8192x2048 1 [⟨S8192x1024, A⟩, ⟨S8192x1024, B⟩] concatenates_S8192x1024_S8192x1024_S8192x2048_d1
        (ix2 r (Fin.castAdd 1024 k)) = A (ix2 r k) :=
      concatenate_pair_apply_left (t := S8192x2048) 1 A B _ _ rfl (ix2 r k) fun d => by match d with | ⟨0, _⟩ => rfl | ⟨1, _⟩ => rfl
    have hw : w (ix2 (Fin.castAdd 1024 k) J) = w (ix2 ⟨0 + k.val, by omega⟩ J) := congrArg w (funext fun a => Fin.ext (by
      match a with
      | ⟨0, _⟩ => exact (Nat.zero_add _).symm
      | ⟨1, _⟩ => rfl))
    show concatenate S8192x2048 1 [⟨S8192x1024, A⟩, ⟨S8192x1024, B⟩] concatenates_S8192x1024_S8192x1024_S8192x2048_d1
        (ix2 r (Fin.castAdd 1024 k)) * w (ix2 (Fin.castAdd 1024 k) J) = _
    rw [hl, hw]
  · have hr : concatenate S8192x2048 1 [⟨S8192x1024, A⟩, ⟨S8192x1024, B⟩] concatenates_S8192x1024_S8192x1024_S8192x2048_d1
        (ix2 r (Fin.natAdd 1024 k)) = B (ix2 r k) :=
      concatenate_pair_apply_right (t := S8192x2048) 1 A B _ _ rfl rfl (ix2 r k)
        (fun d hd => by match d with | ⟨0, _⟩ => rfl | ⟨1, _⟩ => exact absurd rfl hd)
        (by show k.val + 1024 = 1024 + k.val; omega)
    have hw : w (ix2 (Fin.natAdd 1024 k) J) = w (ix2 ⟨1024 + k.val, by omega⟩ J) := congrArg w (funext fun a => Fin.ext (by
      match a with
      | ⟨0, _⟩ => rfl
      | ⟨1, _⟩ => rfl))
    show concatenate S8192x2048 1 [⟨S8192x1024, A⟩, ⟨S8192x1024, B⟩] concatenates_S8192x1024_S8192x1024_S8192x2048_d1
        (ix2 r (Fin.natAdd 1024 k)) * w (ix2 (Fin.natAdd 1024 k) J) = _
    rw [hr, hw]

/-- The four gates' column blocks of the [8192, 4096] pre-activations. -/
theorem gslice (X : S8192x4096.Idx → EReal) (o : ℕ) (h : S8192x4096.Slices ![0, o] S8192x1024) (ho : o + 1024 ≤ 4096)
    (r : Fin 8192) (j : Fin 1024) :
    extractStridedSlice S8192x1024 ![0, o] X h (ix2 r j) = X (ix2 r ⟨o + j.val, by omega⟩) := by
  refine extractStridedSlice_apply ![0, o] X h (ix2 r j) _ fun d => ?_
  match d with
  | ⟨0, _⟩ => exact (Nat.zero_add _).symm
  | ⟨1, _⟩ => rfl
theorem gslice0 (X : S8192x4096.Idx → EReal) (r : Fin 8192) (j : Fin 1024) :
    extractStridedSlice S8192x1024 ![0, 0] X slices_S8192x4096_S8192x1024_0_0 (ix2 r j) = X (ix2 r ⟨0 + j.val, by omega⟩) :=
  gslice X 0 _ (by omega) r j
theorem gslice1 (X : S8192x4096.Idx → EReal) (r : Fin 8192) (j : Fin 1024) :
    extractStridedSlice S8192x1024 ![0, 1024] X slices_S8192x4096_S8192x1024_0_1024 (ix2 r j) = X (ix2 r ⟨1024 + j.val, by omega⟩) :=
  gslice X 1024 _ (by omega) r j
theorem gslice2 (X : S8192x4096.Idx → EReal) (r : Fin 8192) (j : Fin 1024) :
    extractStridedSlice S8192x1024 ![0, 2048] X slices_S8192x4096_S8192x1024_0_2048 (ix2 r j) = X (ix2 r ⟨2048 + j.val, by omega⟩) :=
  gslice X 2048 _ (by omega) r j
theorem gslice3 (X : S8192x4096.Idx → EReal) (r : Fin 8192) (j : Fin 1024) :
    extractStridedSlice S8192x1024 ![0, 3072] X slices_S8192x4096_S8192x1024_0_3072 (ix2 r j) = X (ix2 r ⟨3072 + j.val, by omega⟩) :=
  gslice X 3072 _ (by omega) r j

/-- Row n of gamma or beta, cut out as a one-row matrix. -/
theorem pslice (X : S4x1024.Idx → EReal) (n : ℕ) (h : S4x1024.Slices ![n, 0] S1x1024) (hn : n < 4) (u : Fin 1) (j : Fin 1024) :
    extractStridedSlice S1x1024 ![n, 0] X h (ix2 u j) = X (ix2 ⟨n, hn⟩ ⟨0 + j.val, by omega⟩) := by
  refine extractStridedSlice_apply ![n, 0] X h (ix2 u j) _ fun d => ?_
  match d with
  | ⟨0, _⟩ => show n = n + u.val; omega
  | ⟨1, _⟩ => rfl
theorem pslice0 (X : S4x1024.Idx → EReal) (u : Fin 1) (j : Fin 1024) :
    extractStridedSlice S1x1024 ![0, 0] X slices_S4x1024_S1x1024_0_0 (ix2 u j) = X (ix2 ⟨0, by omega⟩ ⟨0 + j.val, by omega⟩) :=
  pslice X 0 _ (by omega) u j
theorem pslice1 (X : S4x1024.Idx → EReal) (u : Fin 1) (j : Fin 1024) :
    extractStridedSlice S1x1024 ![1, 0] X slices_S4x1024_S1x1024_1_0 (ix2 u j) = X (ix2 ⟨1, by omega⟩ ⟨0 + j.val, by omega⟩) :=
  pslice X 1 _ (by omega) u j
theorem pslice2 (X : S4x1024.Idx → EReal) (u : Fin 1) (j : Fin 1024) :
    extractStridedSlice S1x1024 ![2, 0] X slices_S4x1024_S1x1024_2_0 (ix2 u j) = X (ix2 ⟨2, by omega⟩ ⟨0 + j.val, by omega⟩) :=
  pslice X 2 _ (by omega) u j
theorem pslice3 (X : S4x1024.Idx → EReal) (u : Fin 1) (j : Fin 1024) :
    extractStridedSlice S1x1024 ![3, 0] X slices_S4x1024_S1x1024_3_0 (ix2 u j) = X (ix2 ⟨3, by omega⟩ ⟨0 + j.val, by omega⟩) :=
  pslice X 3 _ (by omega) u j

/-! ## The stages -/

/-- The projected input. -/
theorem proj_apply (x0 : (⟨S8192x1024, .f32⟩ : BufTy).Contents (Elt Ideal)) (x5 : (⟨S1024x1024, .f32⟩ : BufTy).Contents (Elt Ideal)) (x6 : (⟨S1024, .f32⟩ : BufTy).Contents (Elt Ideal)) (r : Fin 8192) (j : Fin 1024) :
    val_main_v3 (F := Ideal) x0 x5 x6 (ix2 r j) = proj (fun k j => x5 (ix2 k j)) (fun j => x6 (ix1 j)) (fun k => x0 (ix2 r k)) j := by
  simp only [val_main_v3, val_main_v2, val_main_v1, val_main_v0,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add]
  simp only [proj]

/-- The first cosine. -/
theorem cos1_apply (x0 : (⟨S8192x1024, .f32⟩ : BufTy).Contents (Elt Ideal)) (x1 : (⟨S8192x1024, .f32⟩ : BufTy).Contents (Elt Ideal)) (x5 : (⟨S1024x1024, .f32⟩ : BufTy).Contents (Elt Ideal)) (x6 : (⟨S1024, .f32⟩ : BufTy).Contents (Elt Ideal)) (r : Fin 8192) :
    val_main_v13 (F := Ideal) x0 x1 x5 x6 (ix1 r) = cosSim (proj (fun k j => x5 (ix2 k j)) (fun j => x6 (ix1 j)) (fun k => x0 (ix2 r k))) (fun k => x1 (ix2 r k)) := by
  simp only [
    val_main_v4, val_main_cst, val_main_v5, val_main_call0_v0, val_main_call0_cst, val_main_call0_v1, val_main_v6,
    val_main_cst_0, val_main_v7, val_main_v8, val_main_call1_v0, val_main_call1_cst, val_main_call1_v1, val_main_v9,
    val_main_cst_1, val_main_v10, val_main_v11, val_main_v12, val_main_v13,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, proj_apply]
  simp only [cosSim, dot]

/-- The scaled input. -/
theorem xmod_apply (x0 : (⟨S8192x1024, .f32⟩ : BufTy).Contents (Elt Ideal)) (x1 : (⟨S8192x1024, .f32⟩ : BufTy).Contents (Elt Ideal)) (x5 : (⟨S1024x1024, .f32⟩ : BufTy).Contents (Elt Ideal)) (x6 : (⟨S1024, .f32⟩ : BufTy).Contents (Elt Ideal)) (r : Fin 8192) (k : Fin 1024) :
    val_main_v23 (F := Ideal) x0 x1 x5 x6 (ix2 r k) = xmodR (fun k j => x5 (ix2 k j)) (fun j => x6 (ix1 j)) (fun k => x0 (ix2 r k)) (fun k => x1 (ix2 r k)) k := by
  simp only [
    val_main_v14, val_main_v15, val_main_cst_2, val_main_v16, val_main_v17, val_main_cst_3, val_main_v18, val_main_v19,
    val_main_v20, val_main_v21, val_main_v22, val_main_v23,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, cos1_apply]
  simp only [xmodR, sigExp]

/-- All four gates' pre-activations at column J of the [8192, 4096] array. -/
theorem gates_apply (x0 : (⟨S8192x1024, .f32⟩ : BufTy).Contents (Elt Ideal)) (x1 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (r : Fin 8192) (J : Fin 4096) :
    val_main_v28 (F := Ideal) x0 x1 x3 x4 x5 x6 (ix2 r J)
      = ((∑ k : Fin 1024, xmodR (fun k j => x5 (ix2 k j)) (fun j => x6 (ix1 j)) (fun k => x0 (ix2 r k)) (fun k => x1 (ix2 r k)) k * x3 (ix2 ⟨0 + k.val, by omega⟩ J))
          + ∑ k : Fin 1024, x1 (ix2 r k) * x3 (ix2 ⟨1024 + k.val, by omega⟩ J)) + x4 (ix1 J) := by
  simp only [val_main_v28, val_main_v27, val_main_v26, val_main_v25, val_main_v24,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, xmod_apply]

/-- Gate i: the host's sigmoid of the layer norm of columns 0 … 1023. -/
theorem gate_i_apply (x0 : (⟨S8192x1024, .f32⟩ : BufTy).Contents (Elt Ideal)) (x1 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v66 (F := Ideal) x0 x1 x3 x4 x5 x6 x7 x8 (ix2 r j)
      = sigExp (gateLN (gateAt x3 x4 x7 x8 0 0 (by omega) (by omega)) (xmodR (fun k j => x5 (ix2 k j)) (fun j => x6 (ix1 j)) (fun k => x0 (ix2 r k)) (fun k => x1 (ix2 r k))) (fun k => x1 (ix2 r k)) j) := by
  simp only [
    val_main_v29, val_main_v33, val_main_v34, val_main_v35, val_main_v36, val_main_cst_4, val_main_v37, val_main_v38,
    val_main_cst_5, val_main_v39, val_main_v40, val_main_v41, val_main_v42, val_main_v43, val_main_cst_6, val_main_v44,
    val_main_v45, val_main_cst_7, val_main_v46, val_main_v47, val_main_v48, val_main_v49, val_main_cst_8, val_main_v50,
    val_main_v51, val_main_v52, val_main_v53, val_main_v54, val_main_v55, val_main_v56, val_main_v57, val_main_v58,
    val_main_v59, val_main_v60, val_main_v61, val_main_v62, val_main_cst_9, val_main_v63, val_main_v64,
    val_main_cst_10, val_main_v65, val_main_v66,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gates_apply]
  simp only [sigExp, gateLN, gateRaw, layerNorm, mean, gateAt, subBlock, vecSeg, rowSeg, zero_add]

/-- Gate f: columns 1024 … 2047. -/
theorem gate_f_apply (x0 : (⟨S8192x1024, .f32⟩ : BufTy).Contents (Elt Ideal)) (x1 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v100 (F := Ideal) x0 x1 x3 x4 x5 x6 x7 x8 (ix2 r j)
      = sigExp (gateLN (gateAt x3 x4 x7 x8 1024 1 (by omega) (by omega)) (xmodR (fun k j => x5 (ix2 k j)) (fun j => x6 (ix1 j)) (fun k => x0 (ix2 r k)) (fun k => x1 (ix2 r k))) (fun k => x1 (ix2 r k)) j) := by
  simp only [
    val_main_v30, val_main_v67, val_main_v68, val_main_v69, val_main_v70, val_main_cst_11, val_main_v71, val_main_v72,
    val_main_cst_12, val_main_v73, val_main_v74, val_main_v75, val_main_v76, val_main_v77, val_main_cst_13,
    val_main_v78, val_main_v79, val_main_cst_14, val_main_v80, val_main_v81, val_main_v82, val_main_v83,
    val_main_cst_15, val_main_v84, val_main_v85, val_main_v86, val_main_v87, val_main_v88, val_main_v89, val_main_v90,
    val_main_v91, val_main_v92, val_main_v93, val_main_v94, val_main_v95, val_main_v96, val_main_cst_16, val_main_v97,
    val_main_v98, val_main_cst_17, val_main_v99, val_main_v100,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gates_apply]
  simp only [sigExp, gateLN, gateRaw, layerNorm, mean, gateAt, subBlock, vecSeg, rowSeg, zero_add]

/-- Gate g: tanh of the layer norm of columns 2048 … 3071. -/
theorem gate_g_apply (x0 : (⟨S8192x1024, .f32⟩ : BufTy).Contents (Elt Ideal)) (x1 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v129 (F := Ideal) x0 x1 x3 x4 x5 x6 x7 x8 (ix2 r j)
      = Ideal.tanh (gateLN (gateAt x3 x4 x7 x8 2048 2 (by omega) (by omega)) (xmodR (fun k j => x5 (ix2 k j)) (fun j => x6 (ix1 j)) (fun k => x0 (ix2 r k)) (fun k => x1 (ix2 r k))) (fun k => x1 (ix2 r k)) j) := by
  simp only [
    val_main_v31, val_main_v101, val_main_v102, val_main_v103, val_main_v104, val_main_cst_18, val_main_v105,
    val_main_v106, val_main_cst_19, val_main_v107, val_main_v108, val_main_v109, val_main_v110, val_main_v111,
    val_main_cst_20, val_main_v112, val_main_v113, val_main_cst_21, val_main_v114, val_main_v115, val_main_v116,
    val_main_v117, val_main_cst_22, val_main_v118, val_main_v119, val_main_v120, val_main_v121, val_main_v122,
    val_main_v123, val_main_v124, val_main_v125, val_main_v126, val_main_v127, val_main_v128, val_main_v129,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gates_apply]
  simp only [sigExp, gateLN, gateRaw, layerNorm, mean, gateAt, subBlock, vecSeg, rowSeg, zero_add]

/-- Gate o: columns 3072 … 4095. -/
theorem gate_o_apply (x0 : (⟨S8192x1024, .f32⟩ : BufTy).Contents (Elt Ideal)) (x1 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v163 (F := Ideal) x0 x1 x3 x4 x5 x6 x7 x8 (ix2 r j)
      = sigExp (gateLN (gateAt x3 x4 x7 x8 3072 3 (by omega) (by omega)) (xmodR (fun k j => x5 (ix2 k j)) (fun j => x6 (ix1 j)) (fun k => x0 (ix2 r k)) (fun k => x1 (ix2 r k))) (fun k => x1 (ix2 r k)) j) := by
  simp only [
    val_main_v32, val_main_v130, val_main_v131, val_main_v132, val_main_v133, val_main_cst_23, val_main_v134,
    val_main_v135, val_main_cst_24, val_main_v136, val_main_v137, val_main_v138, val_main_v139, val_main_v140,
    val_main_cst_25, val_main_v141, val_main_v142, val_main_cst_26, val_main_v143, val_main_v144, val_main_v145,
    val_main_v146, val_main_cst_27, val_main_v147, val_main_v148, val_main_v149, val_main_v150, val_main_v151,
    val_main_v152, val_main_v153, val_main_v154, val_main_v155, val_main_v156, val_main_v157, val_main_v158,
    val_main_v159, val_main_cst_28, val_main_v160, val_main_v161, val_main_cst_29, val_main_v162, val_main_v163,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gates_apply]
  simp only [sigExp, gateLN, gateRaw, layerNorm, mean, gateAt, subBlock, vecSeg, rowSeg, zero_add]

/-- The new cell state. -/
theorem cell_apply (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v166 (F := Ideal) x0 x1 x2 x3 x4 x5 x6 x7 x8 (ix2 r j) = cellAtR x0 x1 x2 x3 x4 x5 x6 x7 x8 r j := by
  simp only [val_main_v166, val_main_v165, val_main_v164, mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gate_i_apply, gate_f_apply, gate_g_apply]
  simp only [cellAtR, cellR, cellState]

/-- The new hidden state. -/
theorem hidden_apply (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v168 (F := Ideal) x0 x1 x2 x3 x4 x5 x6 x7 x8 (ix2 r j)
      = Cert.Cell.hidden sigExp (gateAt x3 x4 x7 x8 0 0 (by omega) (by omega)) (gateAt x3 x4 x7 x8 1024 1 (by omega) (by omega)) (gateAt x3 x4 x7 x8 2048 2 (by omega) (by omega)) (gateAt x3 x4 x7 x8 3072 3 (by omega) (by omega)) (xmodR (fun k j => x5 (ix2 k j)) (fun j => x6 (ix1 j)) (fun k => x0 (ix2 r k)) (fun k => x1 (ix2 r k))) (fun k => x1 (ix2 r k)) (fun k => x2 (ix2 r k)) j := by
  simp only [val_main_v168, val_main_v167, mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, gate_o_apply, cell_apply]
  simp only [Cert.Cell.hidden, cellAtR, cellR]

/-- The second cosine. -/
theorem cos2_apply (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) :
    val_main_v178 (F := Ideal) x0 x1 x2 x3 x4 x5 x6 x7 x8 (ix1 r)
      = cosSim (Cert.Cell.hidden sigExp (gateAt x3 x4 x7 x8 0 0 (by omega) (by omega)) (gateAt x3 x4 x7 x8 1024 1 (by omega) (by omega)) (gateAt x3 x4 x7 x8 2048 2 (by omega) (by omega)) (gateAt x3 x4 x7 x8 3072 3 (by omega) (by omega)) (xmodR (fun k j => x5 (ix2 k j)) (fun j => x6 (ix1 j)) (fun k => x0 (ix2 r k)) (fun k => x1 (ix2 r k))) (fun k => x1 (ix2 r k)) (fun k => x2 (ix2 r k)))
          (cellR (fun k j => x5 (ix2 k j)) (fun j => x6 (ix1 j)) (gateAt x3 x4 x7 x8 0 0 (by omega) (by omega)) (gateAt x3 x4 x7 x8 1024 1 (by omega) (by omega)) (gateAt x3 x4 x7 x8 2048 2 (by omega) (by omega)) (fun k => x0 (ix2 r k)) (fun k => x1 (ix2 r k)) (fun k => x2 (ix2 r k))) := by
  simp only [
    val_main_v169, val_main_cst_30, val_main_v170, val_main_call2_v0, val_main_call2_cst, val_main_call2_v1,
    val_main_v171, val_main_cst_31, val_main_v172, val_main_v173, val_main_call3_v0, val_main_call3_cst,
    val_main_call3_v1, val_main_v174, val_main_cst_32, val_main_v175, val_main_v176, val_main_v177, val_main_v178,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, hidden_apply, cell_apply]
  simp only [cosSim, dot, cellAtR]

/-- The scaled hidden state. -/
theorem hid_apply (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) (r : Fin 8192) (j : Fin 1024) :
    val_main_v192 (F := Ideal) x0 x1 x2 x3 x4 x5 x6 x7 x8 (ix2 r j) = hidAtR x0 x1 x2 x3 x4 x5 x6 x7 x8 r j := by
  simp only [
    val_main_v179, val_main_cst_33, val_main_v180, val_main_v181, val_main_cst_34, val_main_v182, val_main_v183,
    val_main_v184, val_main_v185, val_main_cst_35, val_main_v186, val_main_v187, val_main_cst_36, val_main_v188,
    val_main_v189, val_main_v190, val_main_v191, val_main_v192,
    mulf_apply, addf_apply, subf_apply, maximumf_apply, constant_apply, hdiv_apply, hneg_apply, hexp_apply, hsqrt_apply,
    hrsqrt_apply, htanh_apply, broadcastInDim_scalar_apply, broadcastInDim_a_a1_apply, broadcastInDim_a1_ab_apply,
    broadcastInDim_b_1b_apply, broadcastInDim_1b_ab_apply, hostRowSum_apply, hostDot_apply, hostDotCat_apply, gslice0, gslice1,
    gslice2, gslice3, pslice0, pslice1, pslice2, pslice3, shapeCast_1a_a_apply, Ideal.ofBits_zero_f32, zero_add, hidden_apply, cos2_apply]
  simp only [hidAtR, hidR, mixArg, sigExp]

/-- The reference's two result arrays are the cell's (the kernel's spelling of them). -/
theorem hid_out_eq (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) :
    val_main_v192 (F := Ideal) x0 x1 x2 x3 x4 x5 x6 x7 x8 = hidOut x0 x1 x2 x3 x4 x5 x6 x7 x8 := by
  funext i
  obtain ⟨r, j, rfl⟩ : ∃ (r : Fin 8192) (j : Fin 1024), i = ix2 r j := ⟨i 0, i 1, eq_ix2 i⟩
  rw [hid_apply, ← hidAt_eq]
  rfl

theorem cell_out_eq (x0 : (⟨S8192x1024, .f32⟩ : BufTy).Contents (Elt Ideal)) (x1 : (⟨S8192x1024, .f32⟩ : BufTy).Contents (Elt Ideal)) (x2 : (⟨S8192x1024, .f32⟩ : BufTy).Contents (Elt Ideal)) (x3 : (⟨S2048x4096, .f32⟩ : BufTy).Contents (Elt Ideal)) (x4 : (⟨S4096, .f32⟩ : BufTy).Contents (Elt Ideal)) (x5 : (⟨S1024x1024, .f32⟩ : BufTy).Contents (Elt Ideal)) (x6 : (⟨S1024, .f32⟩ : BufTy).Contents (Elt Ideal)) (x7 : (⟨S4x1024, .f32⟩ : BufTy).Contents (Elt Ideal)) (x8 : (⟨S4x1024, .f32⟩ : BufTy).Contents (Elt Ideal)) :
    val_main_v166 (F := Ideal) x0 x1 x2 x3 x4 x5 x6 x7 x8 = cellOut x0 x1 x2 x3 x4 x5 x6 x7 x8 := by
  funext i
  obtain ⟨r, j, rfl⟩ : ∃ (r : Fin 8192) (j : Fin 1024), i = ix2 r j := ⟨i 0, i 1, eq_ix2 i⟩
  rw [cell_apply, ← cellAt_eq]
  rfl

end Cert.ReferenceIdeal.Rows

end
-- ==== Proof.lean ====
/-
  The certificate of the cosine-gated LSTM cell kernel against its jnp reference, on the extended reals.

  Both programs compute, for each of the 8192 batch rows, the same two rows of 1024 lanes (Proof/CellSpec.lean): the new
  cell state f·cx + i·g and the hidden state o·tanh(c') scaled by one plus the sigmoid of (cos(h', c') + 1) / 2, the four
  gates being layer-normalised rows of [x_mod, hx]·W + b with x_mod the input scaled by one plus the sigmoid of
  cos(x·Wm + bm, hx). The kernel works through the batch in 32 blocks of 256 rows with the weights resident
  (Proof/KernelRows.lean, KernelBody.lean, KernelArrays.lean); the reference is one host program over the whole arrays
  (Proof/ReferenceRows.lean). They differ in three spellings — the sigmoid as one operation or as 1 / (1 + e^(-y)), and
  x·(1 + s) against x + s·x twice — and in the gate product, taken against the input and hidden halves of W separately or
  against their concatenation; all four are identities on the extended reals, the distributive ones because a sigmoid
  is a non-negative real. Rounding to bf16 on the way into the matrix unit is the identity at the ideal values, so the
  idealization rewrote nothing and `preserves` is `True`. The three frames are the generated ones.
-/
import proofs.«101928_j42683384987798_2_alg».proof.Defs
import proofs.«101928_j42683384987798_2_alg».proof.Proof.Gen.Kernel
import proofs.«101928_j42683384987798_2_alg».proof.Proof.Gen.Kernel.Skeleton
import proofs.«101928_j42683384987798_2_alg».proof.Proof.Gen.Kernel.Launch
import proofs.«101928_j42683384987798_2_alg».proof.Proof.Gen.Kernel.Points
import proofs.«101928_j42683384987798_2_alg».proof.Proof.Gen.Kernel.Frame
import proofs.«101928_j42683384987798_2_alg».proof.Proof.Gen.KernelIdeal
import proofs.«101928_j42683384987798_2_alg».proof.Proof.Gen.KernelIdeal.Skeleton
import proofs.«101928_j42683384987798_2_alg».proof.Proof.Gen.KernelIdeal.Launch
import proofs.«101928_j42683384987798_2_alg».proof.Proof.Gen.KernelIdeal.Points
import proofs.«101928_j42683384987798_2_alg».proof.Proof.Gen.KernelIdeal.Frame
import proofs.«101928_j42683384987798_2_alg».proof.Proof.Gen.ReferenceIdeal
import proofs.«101928_j42683384987798_2_alg».proof.Proof.Gen.Pre_finite_inputs
import proofs.«101928_j42683384987798_2_alg».proof.Proof.Gen.KernelIdeal.Value
import proofs.«101928_j42683384987798_2_alg».proof.Proof.RefRead
import proofs.«101928_j42683384987798_2_alg».proof.Proof.KernelArrays
import proofs.«101928_j42683384987798_2_alg».proof.Proof.ReferenceRows
import Idealize.ShloMosaic.Adequacy
import Idealize.ShloMosaic.Init

noncomputable section

namespace Cert.Proof

open Idealize.ShloMosaic Idealize.ShloMosaic.TcCoe Idealize.SL.Sem Cert.Kernel Cert.Cell

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the nine arguments both programs end with the cell's two result arrays of those
    arguments: the kernel's run (Proof/KernelArrays.lean) and the reference's (its generated run, read in
    Proof/ReferenceRows.lean), the two spellings being one function (Proof/CellSpec.lean). -/
theorem algebraic : Cert.algebraic_KernelIdeal_ReferenceIdeal := by
  intro m ρ m' ρ' _ hagree
  refine ⟨fun c => Cert.KernelIdeal.Arrays.hidArr m c, fun c => Cert.KernelIdeal.Arrays.cellArr m c,
    Cert.KernelIdeal.Arrays.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v192_eq, Cert.ReferenceIdeal.Rows.hid_out_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
  · rw [Cert.ReferenceIdeal.Read.val_main_v166_eq, Cert.ReferenceIdeal.Rows.cell_out_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
